-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x32 : Shape := ⟨2, ![600000, 32]⟩
abbrev S128x128 : Shape := ⟨2, ![128, 128]⟩
abbrev S128 : Shape := ⟨1, ![128]⟩
abbrev S32x128 : Shape := ⟨2, ![32, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x32 : S_.BroadcastsInDim S600000x32 (![] : Fin 0 → Fin S600000x32.rank)
  reducesTo_S600000x32_S_d0_1 : S600000x32.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S32x128 : S_.BroadcastsInDim S32x128 (![] : Fin 0 → Fin S32x128.rank)
  reducesTo_S32x128_S_d0_1 : S32x128.ReducesTo [0, 1] S_

variable [Facts]

def fn_part5 {F : FTy → Type} [FloatOps F] (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  main_v88

def fn_part4 {F : FTy → Type} [FloatOps F] (main_arg15 : FVec F S128x128 .f32) (main_arg16 : FVec F S128 .f32) (main_arg17 : FVec F S128x128 .f32) (main_arg18 : FVec F S128 .f32) (main_v63 : IVec S_ 1) (main_v67 : IVec S_ 1) : IVec S_ 1 :=
  let main_v68 : IVec S_ 1 := andi main_v63 main_v67
  let main_v69 : FVec F S128x128 .f32 := Host.absf main_arg15
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg16
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg17
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128 .f32 := Host.absf main_arg18
  let main_cst_32 : FVec F S_ .f32 := constant S_ .f32 0x7F800000#32
  fn_part5 (F := F) main_v83 main_v84 main_cst_32

def fn_part3 {F : FTy → Type} [FloatOps F] (main_arg12 : FVec F S128 .f32) (main_arg13 : FVec F S32x128 .f32) (main_arg14 : FVec F S128 .f32) (main_arg15 : FVec F S128x128 .f32) (main_arg16 : FVec F S128 .f32) (main_arg17 : FVec F S128x128 .f32) (main_arg18 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S32x128 .f32 := Host.absf main_arg13
  let main_cst_22 : FVec F S_ .f32 := constant S_ .f32 0x7F800000#32
  let main_v60 : FVec F S32x128 .f32 := broadcastInDim S32x128 ![] bcast_S_S32x128 main_cst_22
  let main_v61 : IVec S32x128 1 := cmpf .olt main_v59 main_v60
  let main_c_23 : IVec S_ 1 := constantI S_ 1 1#1
  let main_v62 : IVec S_ 1 := (fun x v => Host.reduce IntOp.andi x v reducesTo_S32x128_S_d0_1 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_v63 main_v67

def fn_part2 {F : FTy → Type} [FloatOps F] (main_arg8 : FVec F S128 .f32) (main_arg9 : FVec F S128x128 .f32) (main_arg10 : FVec F S128 .f32) (main_arg11 : FVec F S128x128 .f32) (main_arg12 : FVec F S128 .f32) (main_arg13 : FVec F S32x128 .f32) (main_arg14 : FVec F S128 .f32) (main_arg15 : FVec F S128x128 .f32) (main_arg16 : FVec F S128 .f32) (main_arg17 : FVec F S128x128 .f32) (main_arg18 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_arg13 main_arg14 main_arg15 main_arg16 main_arg17 main_arg18 main_v48 main_v49 main_v50

def fn_part1 {F : FTy → Type} [FloatOps F] (main_arg5 : FVec F S128x128 .f32) (main_arg6 : FVec F S128 .f32) (main_arg7 : FVec F S32x128 .f32) (main_arg8 : FVec F S128 .f32) (main_arg9 : FVec F S128x128 .f32) (main_arg10 : FVec F S128 .f32) (main_arg11 : FVec F S128x128 .f32) (main_arg12 : FVec F S128 .f32) (main_arg13 : FVec F S32x128 .f32) (main_arg14 : FVec F S128 .f32) (main_arg15 : FVec F S128x128 .f32) (main_arg16 : FVec F S128 .f32) (main_arg17 : FVec F S128x128 .f32) (main_arg18 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S32x128 .f32 := Host.absf main_arg7
  let main_cst_10 : FVec F S_ .f32 := constant S_ .f32 0x7F800000#32
  let main_v30 : FVec F S32x128 .f32 := broadcastInDim S32x128 ![] bcast_S_S32x128 main_cst_10
  let main_v31 : IVec S32x128 1 := cmpf .olt main_v29 main_v30
  let main_c_11 : IVec S_ 1 := constantI S_ 1 1#1
  let main_v32 : IVec S_ 1 := (fun x v => Host.reduce IntOp.andi x v reducesTo_S32x128_S_d0_1 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_v33

def fn {F : FTy → Type} [FloatOps F] (main_arg0 : FVec F S50000x128 .f32) (main_arg1 : IVec S2x600000 32) (main_arg2 : FVec F S600000x32 .f32) (main_arg3 : FVec F S128x128 .f32) (main_arg4 : FVec F S128 .f32) (main_arg5 : FVec F S128x128 .f32) (main_arg6 : FVec F S128 .f32) (main_arg7 : FVec F S32x128 .f32) (main_arg8 : FVec F S128 .f32) (main_arg9 : FVec F S128x128 .f32) (main_arg10 : FVec F S128 .f32) (main_arg11 : FVec F S128x128 .f32) (main_arg12 : FVec F S128 .f32) (main_arg13 : FVec F S32x128 .f32) (main_arg14 : FVec F S128 .f32) (main_arg15 : FVec F S128x128 .f32) (main_arg16 : FVec F S128 .f32) (main_arg17 : FVec F S128x128 .f32) (main_arg18 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x32 .f32 := Host.absf main_arg2
  let main_cst_0 : FVec F S_ .f32 := constant S_ .f32 0x7F800000#32
  let main_v5 : FVec F S600000x32 .f32 := broadcastInDim S600000x32 ![] bcast_S_S600000x32 main_cst_0
  let main_v6 : IVec S600000x32 1 := cmpf .olt main_v4 main_v5
  let main_c_1 : IVec S_ 1 := constantI S_ 1 1#1
  let main_v7 : IVec S_ 1 := (fun x v => Host.reduce IntOp.andi x v reducesTo_S600000x32_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_v13 main_v16
-- ==== Kernel.lean ====
abbrev S50000x128 : Shape := ⟨2, ![50000, 128]⟩
abbrev S2x600000 : Shape := ⟨2, ![2, 600000]⟩
abbrev S600000x32 : Shape := ⟨2, ![600000, 32]⟩
abbrev S128x128 : Shape := ⟨2, ![128, 128]⟩
abbrev S128 : Shape := ⟨1, ![128]⟩
abbrev S32x128 : Shape := ⟨2, ![32, 128]⟩
abbrev S1x600000 : Shape := ⟨2, ![1, 600000]⟩
abbrev S600000 : Shape := ⟨1, ![600000]⟩
abbrev S1x128 : Shape := ⟨2, ![1, 128]⟩
abbrev S600000x128 : Shape := ⟨2, ![600000, 128]⟩
abbrev S6000x32 : Shape := ⟨2, ![6000, 32]⟩
abbrev S6000x128 : Shape := ⟨2, ![6000, 128]⟩
abbrev S_ : Shape := ⟨0, ![]⟩
abbrev S600000x1 : Shape := ⟨2, ![600000, 1]⟩
abbrev S5000x128 : Shape := ⟨2, ![5000, 128]⟩
abbrev S2000x128 : Shape := ⟨2, ![2000, 128]⟩

abbrev nBuf : Space → Nat
  | .hbm => 71
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x32, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S32x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S32x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S1x128, .f32⟩
  | .hbm, ⟨24, _⟩ => ⟨S600000x128, .bf16⟩
  | .hbm, ⟨25, _⟩ => ⟨S_, .i32⟩
  | .hbm, ⟨26, _⟩ => ⟨S600000, .i32⟩
  | .hbm, ⟨27, _⟩ => ⟨S600000, .i1⟩
  | .hbm, ⟨28, _⟩ => ⟨S_, .i32⟩
  | .hbm, ⟨29, _⟩ => ⟨S600000, .i32⟩
  | .hbm, ⟨30, _⟩ => ⟨S600000, .i32⟩
  | .hbm, ⟨31, _⟩ => ⟨S600000, .i32⟩
  | .hbm, ⟨32, _⟩ => ⟨S600000x1, .i32⟩
  | .hbm, ⟨33, _⟩ => ⟨S600000x128, .f32⟩
  | .hbm, ⟨34, _⟩ => ⟨S600000x128, .f32⟩
  | .hbm, ⟨35, _⟩ => ⟨S600000x128, .f32⟩
  | .hbm, ⟨36, _⟩ => ⟨S_, .f32⟩
  | .hbm, ⟨37, _⟩ => ⟨S600000x128, .f32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S1x128, .f32⟩
  | .hbm, ⟨44, _⟩ => ⟨S1x128, .f32⟩
  | .hbm, ⟨45, _⟩ => ⟨S50000x128, .f32⟩
  | .hbm, ⟨46, _⟩ => ⟨S1x128, .f32⟩
  | .hbm, ⟨47, _⟩ => ⟨S600000x128, .bf16⟩
  | .hbm, ⟨48, _⟩ => ⟨S_, .i32⟩
  | .hbm, ⟨49, _⟩ => ⟨S600000, .i32⟩
  | .hbm, ⟨50, _⟩ => ⟨S600000, .i1⟩
  | .hbm, ⟨51, _⟩ => ⟨S_, .i32⟩
  | .hbm, ⟨52, _⟩ => ⟨S600000, .i32⟩
  | .hbm, ⟨53, _⟩ => ⟨S600000, .i32⟩
  | .hbm, ⟨54, _⟩ => ⟨S600000, .i32⟩
  | .hbm, ⟨55, _⟩ => ⟨S600000x1, .i32⟩
  | .hbm, ⟨56, _⟩ => ⟨S600000x128, .f32⟩
  | .hbm, ⟨57, _⟩ => ⟨S600000x128, .f32⟩
  | .hbm, ⟨58, _⟩ => ⟨S600000x128, .f32⟩
  | .hbm, ⟨59, _⟩ => ⟨S_, .f32⟩
  | .hbm, ⟨60, _⟩ => ⟨S600000x128, .f32⟩
  | .hbm, ⟨61, _⟩ => ⟨S600000x128, .f32⟩
  | .hbm, ⟨62, _⟩ => ⟨S_, .f32⟩
  | .hbm, ⟨63, _⟩ => ⟨S50000x128, .f32⟩
  | .hbm, ⟨64, _⟩ => ⟨S600000x1, .i32⟩
  | .hbm, ⟨65, _⟩ => ⟨S50000x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x128, .f32⟩
  | .hbm, ⟨70, _⟩ => ⟨S50000x128, .f32⟩
  | .local _ .vmem, ⟨0, _⟩ => ⟨S6000x32, .f32⟩
  | .local _ .vmem, ⟨1, _⟩ => ⟨S6000x32, .f32⟩
  | .local _ .vmem, ⟨2, _⟩ => ⟨S32x128, .f32⟩
  | .local _ .vmem, ⟨3, _⟩ => ⟨S1x128, .f32⟩
  | .local _ .vmem, ⟨4, _⟩ => ⟨S6000x128, .bf16⟩
  | .local _ .vmem, ⟨5, _⟩ => ⟨S6000x128, .bf16⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S128x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S6000x32, .f32⟩
  | .local _ .vmem, ⟨17, _⟩ => ⟨S6000x32, .f32⟩
  | .local _ .vmem, ⟨18, _⟩ => ⟨S32x128, .f32⟩
  | .local _ .vmem, ⟨19, _⟩ => ⟨S1x128, .f32⟩
  | .local _ .vmem, ⟨20, _⟩ => ⟨S6000x128, .bf16⟩
  | .local _ .vmem, ⟨21, _⟩ => ⟨S6000x128, .bf16⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S128x128, .f32⟩
  | .local _ .vmem, ⟨27, _⟩ => ⟨S1x128, .f32⟩
  | .local _ .vmem, ⟨28, _⟩ => ⟨S128x128, .f32⟩
  | .local _ .vmem, ⟨29, _⟩ => ⟨S1x128, .f32⟩
  | .local _ .vmem, ⟨30, _⟩ => ⟨S128x128, .f32⟩
  | .local _ .vmem, ⟨31, _⟩ => ⟨S1x128, .f32⟩
  | .local _ .vmem, ⟨32, _⟩ => ⟨S128x128, .f32⟩
  | .local _ .vmem, ⟨33, _⟩ => ⟨S1x128, .f32⟩
  | .local _ .vmem, ⟨34, _⟩ => ⟨S2000x128, .f32⟩
  | .local _ .vmem, ⟨35, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_c : Ref sig .tc := ⟨.hbm, 25, rfl⟩
abbrev main_v6 : Ref sig .tc := ⟨.hbm, 26, rfl⟩
abbrev main_v7 : Ref sig .tc := ⟨.hbm, 27, rfl⟩
abbrev main_c_0 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_call0_cst : Ref sig .tc := ⟨.hbm, 36, rfl⟩
abbrev main_call0_v0 : Ref sig .tc := ⟨.hbm, 37, rfl⟩
abbrev main_v15 : Ref sig .tc := ⟨.hbm, 38, rfl⟩
abbrev main_cst : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_1 : Ref sig .tc := ⟨.hbm, 48, rfl⟩
abbrev main_v24 : Ref sig .tc := ⟨.hbm, 49, rfl⟩
abbrev main_v25 : Ref sig .tc := ⟨.hbm, 50, rfl⟩
abbrev main_c_2 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_call1_cst : Ref sig .tc := ⟨.hbm, 59, rfl⟩
abbrev main_call1_v0 : Ref sig .tc := ⟨.hbm, 60, rfl⟩
abbrev main_v33 : Ref sig .tc := ⟨.hbm, 61, rfl⟩
abbrev main_cst_3 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg7_0 : Ref sig .tc := ⟨.vmem, 31, rfl⟩
abbrev cc3_stg8_0 : Ref sig .tc := ⟨.vmem, 32, rfl⟩
abbrev cc3_stg9_0 : Ref sig .tc := ⟨.vmem, 33, rfl⟩
abbrev cc3_stg10_0 : Ref sig .tc := ⟨.vmem, 34, rfl⟩
abbrev cc3_stg10_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem7_0 : DmaSem sig := 31
abbrev cc3_sem8_0 : DmaSem sig := 32
abbrev cc3_sem9_0 : DmaSem sig := 33
abbrev cc3_sem10_0 : DmaSem sig := 34
abbrev cc3_sem10_1 : DmaSem sig := 35

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![100], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S6000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S128x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 2 → Memref sig .tc .vmem S2000x128 .f32 := fun | 0 => Memref.whole cc3_stg10_0 | 1 => Memref.whole cc3_stg10_1 | ⟨_ + 2, h⟩ => absurd h (Nat.not_lt.2 (Nat.le_add_left _ _))
abbrev sem3_10 : Fin 2 → DmaSem sig := fun | 0 => cc3_sem10_0 | 1 => cc3_sem10_1 | ⟨_ + 2, h⟩ => absurd h (Nat.not_lt.2 (Nat.le_add_left _ _))
abbrev reads3_10 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  shapeCasts_S128_S1x128 : S128.ShapeCasts S1x128
  inb_S6000x32_S6000x32_0_0 : ∀ a, (![0, 0] : Fin 2 → Nat) a + S6000x32.size a ≤ S6000x32.size a
  h_S6000x32 : 0 < S6000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S6000x128 : S1x128.Broadcasts S6000x128
  inb_S6000x128_S6000x128_0_0 : ∀ a, (![0, 0] : Fin 2 → Nat) a + S6000x128.size a ≤ S6000x128.size a
  h_S6000x128 : 0 < S6000x128.numel
  packedbf16_S6000x128_S6000x128_0_0 : (Rect.unit (s := S6000x128) ![0, 0] S6000x128.size inb_S6000x128_S6000x128_0_0).PackedRows (EltTy.packing .bf16)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  broadcasts_S1x128_S5000x128 : S1x128.Broadcasts S5000x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  dot_S6000x32_S32x128_S6000x128_1_0_0_1_n_n_wf : DotDims.WF S6000x32 S32x128 S6000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6000x32.size a ≤ S600000x32.size a
  hwx0_0 : ∀ i : grid0.Coords, EltTy.bits .f32 = 32 ∨ (Rect.block (s := S600000x32) S6000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S6000x128.size a ≤ S600000x128.size a
  hwx0_3 : ∀ i : grid0.Coords, EltTy.bits .bf16 = 32 ∨ (Rect.block (s := S600000x128) S6000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6000x32.size a ≤ S600000x32.size a
  hwx2_0 : ∀ i : grid2.Coords, EltTy.bits .f32 = 32 ∨ (Rect.block (s := S600000x32) S6000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x128.size a ≤ S32x128.size a
  hwx2_1 : ∀ i : grid2.Coords, EltTy.bits .f32 = 32 ∨ (Rect.block (s := S32x128) S32x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S6000x128.size a ≤ S600000x128.size a
  hwx2_3 : ∀ i : grid2.Coords, EltTy.bits .bf16 = 32 ∨ (Rect.block (s := S600000x128) S6000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x128.size a ≤ S128x128.size a
  hwx3_6 : ∀ i : grid3.Coords, EltTy.bits .f32 = 32 ∨ (Rect.block (s := S128x128) S128x128.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S1x128.size a ≤ S1x128.size a
  hwx3_7 : ∀ i : grid3.Coords, EltTy.bits .f32 = 32 ∨ (Rect.block (s := S1x128) S1x128.size (cc3_transform_7 i) (hinb3_7 i)).WholeWords (EltTy.packing .f32)
  hstage3_8 : ∀ j, (stage3_8 j).IsWhole
  nbuf3_8 : grid3.bufCount reads3_8 true = 1
  hreads3_8 : ∀ i i' : grid3.Coords, (∀ a, reads3_8 a = true → i a = i' a) → cc3_transform_8 i = cc3_transform_8 i'
  hinb3_8 : ∀ (i : grid3.Coords) a, (cc3_transform_8 i a + 1) * S128x128.size a ≤ S128x128.size a
  hwx3_8 : ∀ i : grid3.Coords, EltTy.bits .f32 = 32 ∨ (Rect.block (s := S128x128) S128x128.size (cc3_transform_8 i) (hinb3_8 i)).WholeWords (EltTy.packing .f32)
  hstage3_9 : ∀ j, (stage3_9 j).IsWhole
  nbuf3_9 : grid3.bufCount reads3_9 true = 1
  hreads3_9 : ∀ i i' : grid3.Coords, (∀ a, reads3_9 a = true → i a = i' a) → cc3_transform_9 i = cc3_transform_9 i'
  hinb3_9 : ∀ (i : grid3.Coords) a, (cc3_transform_9 i a + 1) * S1x128.size a ≤ S1x128.size a
  hwx3_9 : ∀ i : grid3.Coords, EltTy.bits .f32 = 32 ∨ (Rect.block (s := S1x128) S1x128.size (cc3_transform_9 i) (hinb3_9 i)).WholeWords (EltTy.packing .f32)
  hstage3_10 : ∀ j, (stage3_10 j).IsWhole
  nbuf3_10 : grid3.bufCount reads3_10 false = 2
  hreads3_10 : ∀ i i' : grid3.Coords, (∀ a, reads3_10 a = true → i a = i' a) → cc3_transform_10 i = cc3_transform_10 i'
  hinb3_10 : ∀ (i : grid3.Coords) a, (cc3_transform_10 i a + 1) * S2000x128.size a ≤ S50000x128.size a
  hwx3_10 : ∀ i : grid3.Coords, EltTy.bits .f32 = 32 ∨ (Rect.block (s := S50000x128) S2000x128.size (cc3_transform_10 i) (hinb3_10 i)).WholeWords (EltTy.packing .f32)

variable [Facts₀]

def dot_S6000x32_S32x128_S6000x128_1_0_0_1_n_n : DotDims S6000x32 S32x128 S6000x128 where
  lhsContracting := [1]
  rhsContracting := [0]
  lhsNonContracting := [0]
  rhsNonContracting := [1]
  lhsBatch := []
  rhsBatch := []
  wf := dot_S6000x32_S32x128_S6000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg2) S6000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S6000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_arg2) S6000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg13) S32x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v22) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v23) S6000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v36) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v21) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg9) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v38) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg15) S128x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v39) S1x128.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_arg17) S128x128.size cc3_transform_8 reads3_8 false true 1 stage3_8 sem3_8
    hrank3 hreads3_8 hinb3_8 nbuf3_8 (Memref.isWhole_whole _) hwx3_8 hstage3_8

abbrev win3_9 : Pipeline.Window sig grid3 :=
  Pipeline.Window.ofSpec (Memref.whole main_v40) S1x128.size cc3_transform_9 reads3_9 false true 1 stage3_9 sem3_9
    hrank3 hreads3_9 hinb3_9 nbuf3_9 (Memref.isWhole_whole _) hwx3_9 hstage3_9

abbrev win3_10 : Pipeline.Window sig grid3 :=
  Pipeline.Window.ofSpec (Memref.whole main_v41) S2000x128.size cc3_transform_10 reads3_10 true false 2 stage3_10 sem3_10
    hrank3 hreads3_10 hinb3_10 nbuf3_10 (Memref.isWhole_whole _) hwx3_10 hstage3_10

abbrev win3 : Fin 11 → Pipeline.Window sig grid3 := fun | 0 => win3_0 | 1 => win3_1 | 2 => win3_2 | 3 => win3_3 | 4 => win3_4 | 5 => win3_5 | 6 => win3_6 | 7 => win3_7 | 8 => win3_8 | 9 => win3_9 | 10 => win3_10 | ⟨_ + 11, h⟩ => absurd h (Nat.not_lt.2 (Nat.le_add_left _ _))
abbrev spec3 : Fin 11 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x32 : Shape := ⟨2, ![600000, 32]⟩
abbrev S128x128 : Shape := ⟨2, ![128, 128]⟩
abbrev S128 : Shape := ⟨1, ![128]⟩
abbrev S32x128 : Shape := ⟨2, ![32, 128]⟩
abbrev S1x600000 : Shape := ⟨2, ![1, 600000]⟩
abbrev S600000 : Shape := ⟨1, ![600000]⟩
abbrev S600000x128 : Shape := ⟨2, ![600000, 128]⟩
abbrev S1x128 : Shape := ⟨2, ![1, 128]⟩
abbrev S_ : Shape := ⟨0, ![]⟩
abbrev S600000x1 : Shape := ⟨2, ![600000, 1]⟩

abbrev nBuf : Space → Nat
  | .hbm => 106
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x32, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S32x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S32x128, .f32⟩
  | .hbm, ⟨14, _⟩ => ⟨S128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S1x600000, .i32⟩
  | .hbm, ⟨20, _⟩ => ⟨S600000, .i32⟩
  | .hbm, ⟨21, _⟩ => ⟨S1x600000, .i32⟩
  | .hbm, ⟨22, _⟩ => ⟨S600000, .i32⟩
  | .hbm, ⟨23, _⟩ => ⟨S600000x128, .f32⟩
  | .hbm, ⟨24, _⟩ => ⟨S1x128, .f32⟩
  | .hbm, ⟨25, _⟩ => ⟨S600000x128, .f32⟩
  | .hbm, ⟨26, _⟩ => ⟨S600000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S600000x128, .f32⟩
  | .hbm, ⟨37, _⟩ => ⟨S_, .f32⟩
  | .hbm, ⟨38, _⟩ => ⟨S600000x128, .f32⟩
  | .hbm, ⟨39, _⟩ => ⟨S600000x128, .f32⟩
  | .hbm, ⟨40, _⟩ => ⟨S_, .f32⟩
  | .hbm, ⟨41, _⟩ => ⟨S50000x128, .f32⟩
  | .hbm, ⟨42, _⟩ => ⟨S600000x1, .i32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S1x128, .f32⟩
  | .hbm, ⟨47, _⟩ => ⟨S50000x128, .f32⟩
  | .hbm, ⟨48, _⟩ => ⟨S50000x128, .f32⟩
  | .hbm, ⟨49, _⟩ => ⟨S_, .f32⟩
  | .hbm, ⟨50, _⟩ => ⟨S50000x128, .f32⟩
  | .hbm, ⟨51, _⟩ => ⟨S50000x128, .f32⟩
  | .hbm, ⟨52, _⟩ => ⟨S50000x128, .f32⟩
  | .hbm, ⟨53, _⟩ => ⟨S1x128, .f32⟩
  | .hbm, ⟨54, _⟩ => ⟨S50000x128, .f32⟩
  | .hbm, ⟨55, _⟩ => ⟨S50000x128, .f32⟩
  | .hbm, ⟨56, _⟩ => ⟨S_, .f32⟩
  | .hbm, ⟨57, _⟩ => ⟨S50000x128, .f32⟩
  | .hbm, ⟨58, _⟩ => ⟨S50000x128, .f32⟩
  | .hbm, ⟨59, _⟩ => ⟨S600000x128, .f32⟩
  | .hbm, ⟨60, _⟩ => ⟨S1x128, .f32⟩
  | .hbm, ⟨61, _⟩ => ⟨S600000x128, .f32⟩
  | .hbm, ⟨62, _⟩ => ⟨S600000x128, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S600000x128, .f32⟩
  | .hbm, ⟨73, _⟩ => ⟨S_, .f32⟩
  | .hbm, ⟨74, _⟩ => ⟨S600000x128, .f32⟩
  | .hbm, ⟨75, _⟩ => ⟨S600000x128, .f32⟩
  | .hbm, ⟨76, _⟩ => ⟨S_, .f32⟩
  | .hbm, ⟨77, _⟩ => ⟨S50000x128, .f32⟩
  | .hbm, ⟨78, _⟩ => ⟨S600000x1, .i32⟩
  | .hbm, ⟨79, _⟩ => ⟨S50000x128, .f32⟩
  | .hbm, ⟨80, _⟩ => ⟨S50000x128, .f32⟩
  | .hbm, ⟨81, _⟩ => ⟨S50000x128, .f32⟩
  | .hbm, ⟨82, _⟩ => ⟨S1x128, .f32⟩
  | .hbm, ⟨83, _⟩ => ⟨S50000x128, .f32⟩
  | .hbm, ⟨84, _⟩ => ⟨S50000x128, .f32⟩
  | .hbm, ⟨85, _⟩ => ⟨S_, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S1x128, .f32⟩
  | .hbm, ⟨90, _⟩ => ⟨S50000x128, .f32⟩
  | .hbm, ⟨91, _⟩ => ⟨S50000x128, .f32⟩
  | .hbm, ⟨92, _⟩ => ⟨S_, .f32⟩
  | .hbm, ⟨93, _⟩ => ⟨S50000x128, .f32⟩
  | .hbm, ⟨94, _⟩ => ⟨S50000x128, .f32⟩
  | .hbm, ⟨95, _⟩ => ⟨S50000x128, .f32⟩
  | .hbm, ⟨96, _⟩ => ⟨S1x128, .f32⟩
  | .hbm, ⟨97, _⟩ => ⟨S50000x128, .f32⟩
  | .hbm, ⟨98, _⟩ => ⟨S50000x128, .f32⟩
  | .hbm, ⟨99, _⟩ => ⟨S_, .f32⟩
  | .hbm, ⟨100, _⟩ => ⟨S50000x128, .f32⟩
  | .hbm, ⟨101, _⟩ => ⟨S50000x128, .f32⟩
  | .hbm, ⟨102, _⟩ => ⟨S50000x128, .f32⟩
  | .hbm, ⟨103, _⟩ => ⟨S1x128, .f32⟩
  | .hbm, ⟨104, _⟩ => ⟨S50000x128, .f32⟩
  | .hbm, ⟨105, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call0_cst : Ref sig .tc := ⟨.hbm, 37, rfl⟩
abbrev main_call0_v0 : Ref sig .tc := ⟨.hbm, 38, rfl⟩
abbrev main_v16 : Ref sig .tc := ⟨.hbm, 39, rfl⟩
abbrev main_cst : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_1 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call1_cst : Ref sig .tc := ⟨.hbm, 56, rfl⟩
abbrev main_call1_v0 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_c_2 : Ref sig .tc := ⟨.hbm, 63, rfl⟩
abbrev main_v36 : Ref sig .tc := ⟨.hbm, 64, rfl⟩
abbrev main_v37 : Ref sig .tc := ⟨.hbm, 65, rfl⟩
abbrev main_c_3 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call2_cst : Ref sig .tc := ⟨.hbm, 73, rfl⟩
abbrev main_call2_v0 : Ref sig .tc := ⟨.hbm, 74, rfl⟩
abbrev main_v44 : Ref sig .tc := ⟨.hbm, 75, rfl⟩
abbrev main_cst_4 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_5 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_call3_cst : Ref sig .tc := ⟨.hbm, 92, rfl⟩
abbrev main_call3_v0 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_call4_cst : Ref sig .tc := ⟨.hbm, 99, rfl⟩
abbrev main_call4_v0 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000 : S_.BroadcastsInDim S600000 (![] : Fin 0 → Fin S600000.rank)
  bcast_S600000_S600000x1_0 : S600000.BroadcastsInDim S600000x1 (![0] : Fin 1 → Fin S600000x1.rank)
  bcast_S_S600000x128 : S_.BroadcastsInDim S600000x128 (![] : Fin 0 → Fin S600000x128.rank)
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  dot_S600000x32_S32x128_S600000x128_1_0_0_1_n_n_wf : DotDims.WF S600000x32 S32x128 S600000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x128_S50000x128_1_0_0_1_n_n_wf : DotDims.WF S50000x128 S128x128 S50000x128 [1] [0] [0] [1] [] []

variable [Facts₀]

def dot_S600000x32_S32x128_S600000x128_1_0_0_1_n_n : DotDims S600000x32 S32x128 S600000x128 where
  lhsContracting := [1]
  rhsContracting := [0]
  lhsNonContracting := [0]
  rhsNonContracting := [1]
  lhsBatch := []
  rhsBatch := []
  wf := dot_S600000x32_S32x128_S600000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The run of the idealized kernel program with its result named.

  The program is four kernel launches among stretches of host operations. Its buffers' contents at every boundary
  between two segments are a fold from the launch memory: a host stretch applies its operations, a launch replaces
  its arrays by what its grid points write back. Every weakly fair execution terminates without a fault in a state
  whose unscoped buffers hold the last boundary's contents; so the result buffer holds the last launch's output
  array at that boundary, and every argument buffer holds what it held at launch.
-/
import proofs.«180991_j68848325755451_2_alg».proof.Proof.Gen.KernelIdeal.Frame

set_option maxRecDepth 16384

noncomputable section

namespace Cert.KernelIdeal.Valued

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument buffers as launched. -/
theorem run_valued : θ_run defs (onTc (τ := τ) (main (F := F))) ⟨m, fun _ => 0, ρ⟩ (fun r => ∀ c : Dev nD,
      r.2.mem ((c.tc : Thread nD τ).loc main_v41) = W12 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v41 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c),
       (h c _ (mem_uc main_arg17 (by decide))).trans (W12_main_arg17 m ρ c),
       (h c _ (mem_uc main_arg18 (by decide))).trans (W12_main_arg18 m ρ c)⟩)

end Cert.KernelIdeal.Valued

end
-- ==== Proof.GineAgg.lean ====
/-
  The neighbourhood aggregation, as one function.

  Both programs aggregate messages along the edges in the same way: for every edge, take the row of the node array
  at the edge's source, add the edge's embedding row, rectify; then add each edge's message row into the row of its
  destination, starting from the all-zero array. The source and destination of an edge are the two rows of the edge
  index array, a negative source counted from the end. The certificate never opens this function: it only needs that both
  programs apply it to equal node arrays, the same edge index and equal embeddings.

  The stages below are the reference's own: the second layer's aggregation is the same function of the first layer's
  output and the second embedding.
-/
import proofs.«180991_j68848325755451_2_alg».proof.Proof.Gen.ReferenceIdeal.Read

noncomputable section

namespace Cert.Gine

open Cert.ReferenceIdeal Cert.ReferenceIdeal.Gen Cert.ReferenceIdeal.Read
open Idealize.ShloMosaic Idealize.ShloMosaic.TcCoe Idealize.SL.Sem

variable {F : FTy → Type} [FloatOps F]

/-- The aggregated messages: the scatter-add, over the destinations, of the rectified sums of the gathered source rows
    and the embedding rows, onto the zero array. -/
def agg (x : (⟨S50000x128, .f32⟩ : BufTy).Contents (Elt F)) (ei : (⟨S2x600000, .i32⟩ : BufTy).Contents (Elt F))
    (e : (⟨S600000x128, .f32⟩ : BufTy).Contents (Elt F)) : (⟨S50000x128, .f32⟩ : BufTy).Contents (Elt F) :=
  Host.scatterAdd scatter_S50000x128_S600000x1_S600000x128_1_0_0_1 (val_main_v17 (F := F)) (val_main_v18 (F := F) ei)
    (maximumf (addf (Host.gather gather_S50000x128_S600000x1_S600000x128_1_0_n_n_0_1_1128 x (val_main_v13 (F := F) ei)) e)
      (val_main_call0_v0 (F := F)))

/-- The reference's first aggregation is `agg` of the node features and the first embedding. -/
theorem v19_eq (x0 : (⟨S50000x128, .f32⟩ : BufTy).Contents (Elt F)) (x1 : (⟨S2x600000, .i32⟩ : BufTy).Contents (Elt F))
    (x2 : (⟨S600000x32, .f32⟩ : BufTy).Contents (Elt F)) (x7 : (⟨S32x128, .f32⟩ : BufTy).Contents (Elt F))
    (x8 : (⟨S128, .f32⟩ : BufTy).Contents (Elt F)) :
    val_main_v19 (F := F) x0 x1 x2 x7 x8 = agg x0 x1 (val_main_v7 (F := F) x2 x7 x8) := rfl

/-- The reference's second aggregation is `agg` of the first layer's output and the second embedding. -/
theorem v47_eq (x0 : (⟨S50000x128, .f32⟩ : BufTy).Contents (Elt F)) (x1 : (⟨S2x600000, .i32⟩ : BufTy).Contents (Elt F))
    (x2 : (⟨S600000x32, .f32⟩ : BufTy).Contents (Elt F)) (x3 : (⟨S128x128, .f32⟩ : BufTy).Contents (Elt F))
    (x4 : (⟨S128, .f32⟩ : BufTy).Contents (Elt F)) (x5 : (⟨S128x128, .f32⟩ : BufTy).Contents (Elt F))
    (x6 : (⟨S128, .f32⟩ : BufTy).Contents (Elt F)) (x7 : (⟨S32x128, .f32⟩ : BufTy).Contents (Elt F))
    (x8 : (⟨S128, .f32⟩ : BufTy).Contents (Elt F)) (x13 : (⟨S32x128, .f32⟩ : BufTy).Contents (Elt F))
    (x14 : (⟨S128, .f32⟩ : BufTy).Contents (Elt F)) :
    val_main_v47 (F := F) x0 x1 x2 x3 x4 x5 x6 x7 x8 x13 x14
      = agg (val_main_v31 (F := F) x0 x1 x2 x3 x4 x5 x6 x7 x8) x1 (val_main_v35 (F := F) x2 x13 x14) := rfl

end Cert.Gine

end
-- ==== Proof.Folds.lean ====
/-
  The buffers each launch finds, in terms of the launch memory.

  Between two launches the program runs host operations: it cuts the edge index into its source and destination rows,
  reshapes each bias vector to a one-row array, and computes the aggregated messages from the node array, the edge
  index and the embedding the previous launch wrote. No host operation and no launch writes an argument buffer, so every
  argument a launch reads holds what it held at launch; a bias row is the reshaped bias argument; the aggregated messages
  are the aggregation function of the node array, the edge index and the embedding array as the previous launches left
  them (the embedding converted from its storage format, which changes no value on the extended reals).
-/
import proofs.«180991_j68848325755451_2_alg».proof.Proof.Gen.KernelIdeal.Frame
import proofs.«180991_j68848325755451_2_alg».proof.Proof.GineAgg
import Idealize.ShloMosaic.Lib.StableHlo.Run

set_option maxRecDepth 16384

noncomputable section

namespace Cert.Gine.Fold

open Cert.KernelIdeal Cert.KernelIdeal.Gen Cert.Gine
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## A launch leaves every buffer that is not one of its arrays as it found it, and its output array at what its
    grid points wrote back -/

theorem W2_ne (c : Dev nD) (b : Ref sig .tc) (hb : ∀ w, Pipeline.arrRef spec0 w ≠ b) :
    W2 m ρ c (no_index (Proc.devRef .tc b)) = W1 m ρ c (Proc.devRef .tc b) := W2_of_ne m ρ c b hb
theorem W6_ne (c : Dev nD) (b : Ref sig .tc) (hb : ∀ w, Pipeline.arrRef spec1 w ≠ b) :
    W6 m ρ c (no_index (Proc.devRef .tc b)) = W5 m ρ c (Proc.devRef .tc b) := W6_of_ne m ρ c b hb
theorem W8_ne (c : Dev nD) (b : Ref sig .tc) (hb : ∀ w, Pipeline.arrRef spec2 w ≠ b) :
    W8 m ρ c (no_index (Proc.devRef .tc b)) = W7 m ρ c (Proc.devRef .tc b) := W8_of_ne m ρ c b hb
theorem W2_out (c : Dev nD) :
    W2 m ρ c (no_index (Proc.devRef .tc main_v5)) = (dat0 (V1 m ρ) c).arrAt 3 cfg0.N := W2_arr m ρ c 3
theorem W6_out (c : Dev nD) :
    W6 m ρ c (no_index (Proc.devRef .tc main_v21)) = (dat1 (V5 m ρ) c).arrAt 6 cfg1.N := W6_arr m ρ c 6
theorem W8_out (c : Dev nD) :
    W8 m ρ c (no_index (Proc.devRef .tc main_v23)) = (dat2 (V7 m ρ) c).arrAt 3 cfg2.N := W8_arr m ρ c 3
/-- The edge attributes are an input array of the first launch: it leaves them as it found them. -/
theorem W2_arg2 (c : Dev nD) :
    W2 m ρ c (no_index (Proc.devRef .tc main_arg2)) = W1 m ρ c (Proc.devRef .tc main_arg2) :=
  (W2_arr m ρ c 0).trans (((dat0 (V1 m ρ) c).arrAt_in 0 rfl _).trans (A_eq0 (V1 m ρ) c 0))

/-- One pass: every host operation's result at its own buffer is its function of its operands' buffers, at any other
    buffer what was there; a launch's boundary by the lemmas above. -/
macro "fold_down" : tactic =>
  `(tactic| simp (disch := decide) only [V1, V5, V7, V11, W1, W3, W4, W5, W7, W9, W10, W11, W0,
      hostOps0, hostOps1, hostOps1_1, hostOps1_2, hostOps2, hostOps3, hostOps3_1, hostOps3_2, after_cons, after_nil,
      nullary_result', unary_result', binary_result', ternary_result', quaternary_result', reshape_result',
      nullary_result_ne', unary_result_ne', binary_result_ne', ternary_result_ne', quaternary_result_ne', reshape_result_ne',
      W2_ne, W6_ne, W8_ne, W2_out, W6_out, W8_out, W2_arg2])

/-! ## The first embedding launch -/

theorem V1_arg2 (c : Dev nD) : V1 m ρ c main_arg2 = m ((c : Thread nD τ).loc main_arg2) := by
  fold_down
theorem V1_arg7 (c : Dev nD) : V1 m ρ c main_arg7 = m ((c : Thread nD τ).loc main_arg7) := by
  fold_down
theorem V1_v4 (c : Dev nD) :
    V1 m ρ c main_v4 = shapeCast S1x128 (m ((c : Thread nD τ).loc main_arg8)) shapeCasts_S128_S1x128 := by
  fold_down; rfl

/-! ## The first node launch -/

theorem V5_arg0 (c : Dev nD) : V5 m ρ c main_arg0 = m ((c : Thread nD τ).loc main_arg0) := by
  fold_down
theorem V5_arg3 (c : Dev nD) : V5 m ρ c main_arg3 = m ((c : Thread nD τ).loc main_arg3) := by
  fold_down
theorem V5_arg5 (c : Dev nD) : V5 m ρ c main_arg5 = m ((c : Thread nD τ).loc main_arg5) := by
  fold_down
theorem V5_v19 (c : Dev nD) :
    V5 m ρ c main_v19 = shapeCast S1x128 (m ((c : Thread nD τ).loc main_arg4)) shapeCasts_S128_S1x128 := by
  fold_down; rfl
theorem V5_v20 (c : Dev nD) :
    V5 m ρ c main_v20 = shapeCast S1x128 (m ((c : Thread nD τ).loc main_arg6)) shapeCasts_S128_S1x128 := by
  fold_down; rfl
theorem V5_v18 (c : Dev nD) :
    V5 m ρ c main_v18 = agg (m ((c : Thread nD τ).loc main_arg0)) (m ((c : Thread nD τ).loc main_arg1))
      (extf .f32 ((dat0 (V1 m ρ) c).arrAt 3 cfg0.N) bitsLt_bf16_f32) := by
  fold_down
  rfl

/-! ## The second embedding launch -/

theorem V7_arg2 (c : Dev nD) : V7 m ρ c main_arg2 = m ((c : Thread nD τ).loc main_arg2) := by
  fold_down
theorem V7_arg13 (c : Dev nD) : V7 m ρ c main_arg13 = m ((c : Thread nD τ).loc main_arg13) := by
  fold_down
theorem V7_v22 (c : Dev nD) :
    V7 m ρ c main_v22 = shapeCast S1x128 (m ((c : Thread nD τ).loc main_arg14)) shapeCasts_S128_S1x128 := by
  fold_down; rfl

/-! ## The second node launch, with the output head -/

theorem V11_v21 (c : Dev nD) : V11 m ρ c main_v21 = (dat1 (V5 m ρ) c).arrAt 6 cfg1.N := by
  fold_down
theorem V11_arg9 (c : Dev nD) : V11 m ρ c main_arg9 = m ((c : Thread nD τ).loc main_arg9) := by
  fold_down
theorem V11_arg11 (c : Dev nD) : V11 m ρ c main_arg11 = m ((c : Thread nD τ).loc main_arg11) := by
  fold_down
theorem V11_arg15 (c : Dev nD) : V11 m ρ c main_arg15 = m ((c : Thread nD τ).loc main_arg15) := by
  fold_down
theorem V11_arg17 (c : Dev nD) : V11 m ρ c main_arg17 = m ((c : Thread nD τ).loc main_arg17) := by
  fold_down
theorem V11_v37 (c : Dev nD) :
    V11 m ρ c main_v37 = shapeCast S1x128 (m ((c : Thread nD τ).loc main_arg10)) shapeCasts_S128_S1x128 := by
  fold_down; rfl
theorem V11_v38 (c : Dev nD) :
    V11 m ρ c main_v38 = shapeCast S1x128 (m ((c : Thread nD τ).loc main_arg12)) shapeCasts_S128_S1x128 := by
  fold_down; rfl
theorem V11_v39 (c : Dev nD) :
    V11 m ρ c main_v39 = shapeCast S1x128 (m ((c : Thread nD τ).loc main_arg16)) shapeCasts_S128_S1x128 := by
  fold_down; rfl
theorem V11_v40 (c : Dev nD) :
    V11 m ρ c main_v40 = shapeCast S1x128 (m ((c : Thread nD τ).loc main_arg18)) shapeCasts_S128_S1x128 := by
  fold_down; rfl
theorem V11_v36 (c : Dev nD) :
    V11 m ρ c main_v36 = agg ((dat1 (V5 m ρ) c).arrAt 6 cfg1.N) (m ((c : Thread nD τ).loc main_arg1))
      (extf .f32 ((dat2 (V7 m ρ) c).arrAt 3 cfg2.N) bitsLt_bf16_f32) := by
  fold_down
  rfl

/-! ## The result -/

/-- The result buffer at the last boundary is the last launch's output array. -/
theorem result (c : Dev nD) : W12 m ρ c (Proc.devRef .tc main_v41) = (dat3 (V11 m ρ) c).arrAt 10 cfg3.N :=
  W12_arr m ρ c 10

end Cert.Gine.Fold

end
-- ==== Proof.LibMatmulBlock.lean ====
/-
  One block of a matrix product, entry by entry.

  A product of an m×k array by a k×n array, contracted over the left operand's second axis and the right operand's
  first, and accumulated into the all-zero array, has at entry (a, b) the value ∑_c A[a, c] · B[c, b] over the
  extended reals. The contraction's index set has one axis of extent k, so the sum over it is re-indexed by that
  axis's coordinate.
-/
import Idealize.ShloMosaic.PureOps.Ideal
import Idealize.ShloMosaic.PureOps.Ideal.Laws
import Idealize.ShloMosaic.Lib.ValueIdx

noncomputable section

namespace Cert.LibMatmulBlock

open Idealize.ShloMosaic Idealize.ShloMosaic.ValueIdx

/-- The product of an m×k block by a k×n block accumulated into the zero splat, read at entry (a, b), is the sum over
    the contracted coordinate c of A[a, c] · B[c, b]. At the ideal values; `w` is the dimension numbers'
    well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

end Cert.LibMatmulBlock

end
-- ==== Proof.GineSpec.lean ====
/-
  The arithmetic of one GINE node update, row by row, on the extended reals.

  Every array the two programs compute after the neighbourhood aggregation is obtained ROW BY ROW: the row `r` of the
  result depends on the row `r` of the inputs only, through dense layers `h ↦ h · W + b` (an inner product of the row
  with each column of the weight matrix, plus the bias entry of that column) and the rectifier `v ↦ max v 0`.
  The two functions below are these two steps on one row; a block of rows and the whole array are then the same
  function applied at each of their rows.
-/
import Idealize.ShloMosaic.PureOps.Ideal
import Idealize.ShloMosaic.Lib.ValueIdx

noncomputable section

namespace Cert.Gine

open Idealize.ShloMosaic Idealize.ShloMosaic.ValueIdx

/-- One dense layer on a row `h` of length `K`: entry `q` of `h · W + b`, the inner product of the row with column
    `q` of the `K × N` weight array, plus the bias at `q`. -/
def dense {K N : ℕ} (h : Fin K → EReal) (w : (⟨2, ![K, N]⟩ : Shape).Idx → EReal) (b : Fin N → EReal) (q : Fin N) : EReal :=
  (∑ k : Fin K, h k * w (ix2 k q)) + b q

/-- The rectifier on a row: the larger of the entry and the value the all-zero pattern denotes. -/
def relu {N : ℕ} (v : Fin N → EReal) (q : Fin N) : EReal :=
  max (v q) (Ideal.ofBits .f32 0x00000000#32)

/-- A dense layer depends on its row only through the row's entries. -/
theorem dense_congr {K N : ℕ} {h h' : Fin K → EReal} (e : ∀ k, h k = h' k) (w : (⟨2, ![K, N]⟩ : Shape).Idx → EReal)
    (b : Fin N → EReal) (q : Fin N) : dense h w b q = dense h' w b q := by
  rw [show h = h' from funext e]

end Cert.Gine

end
-- ==== Proof.Payloads.lean ====
/-
  The values the four kernel bodies store, read at an entry.

  Each body computes, from the blocks it has loaded, an array of 128 columns whose row p depends on row p of the
  loaded blocks only: a chain of dense layers (a product of the block by a weight array accumulated into the zero
  array, plus a one-row bias repeated over the rows) and rectifiers (the entrywise maximum with the zero splat). The
  conversions to the narrower format are the identity on the extended reals. Read at the entry (p, q), such a
  chain is the chain of the row functions `dense` and `relu` applied to row p of the inputs, at q.
-/
import proofs.«180991_j68848325755451_2_alg».proof.Proof.Gen.KernelIdeal.Skeleton
import proofs.«180991_j68848325755451_2_alg».proof.Proof.LibMatmulBlock
import proofs.«180991_j68848325755451_2_alg».proof.Proof.GineSpec
import Idealize.ShloMosaic.Lib.ValueLayout
import Idealize.ShloMosaic.Lib.Pipeline.Value

noncomputable section

namespace Cert.Gine.Pay

open Cert.KernelIdeal Cert.KernelIdeal.Gen Cert.Gine Idealize.ShloMosaic Idealize.ShloMosaic.ValueIdx

/-- One dense layer as the operations compute it: the product of the block `A` by the weights `B` (both converted
    to the narrower format, which changes nothing here) accumulated into the zero array, plus the one-row bias `b`
    repeated over the rows, read at (p, q), is the dense layer of row p of `A`, at q. The row of `A` is given
    as any function `h` that agrees with it. -/
theorem layer_apply {m k : Nat}
    (w : DotDims.WF ⟨2, ![m, k]⟩ ⟨2, ![k, 128]⟩ ⟨2, ![m, 128]⟩ [1] [0] [0] [1] [] [])
    (hb : (⟨2, ![1, 128]⟩ : Shape).Broadcasts ⟨2, ![m, 128]⟩)
    (hs : (⟨2, ![1, 128]⟩ : Shape).ShapeCasts ⟨2, ![1, 128]⟩)
    (ht : FTy.bits .bf16 < FTy.bits .f32)
    (A : FVec Ideal ⟨2, ![m, k]⟩ .f32) (B : FVec Ideal ⟨2, ![k, 128]⟩ .f32) (b : FVec Ideal ⟨2, ![1, 128]⟩ .f32)
    (p : Fin m) (q : Fin 128) (h : Fin k → EReal) (hA : ∀ c, A (ix2 p c) = h c) :
    addf (matmul (⟨[1], [0], [0], [1], [], [], w⟩ : DotDims ⟨2, ![m, k]⟩ ⟨2, ![k, 128]⟩ ⟨2, ![m, 128]⟩) none
          (truncf .bf16 A ht) (truncf .bf16 B ht) (constant (F := Ideal) ⟨2, ![m, 128]⟩ .f32 0x00000000#32))
        (broadcastTo ⟨2, ![m, 128]⟩ (shapeCast ⟨2, ![1, 128]⟩ b hs) hb) (ix2 p q)
      = dense h B (fun q => b (ix2 (0 : Fin 1) q)) q := by
  show FloatOps.addf _ _ = _
  rw [Ideal.addf_def, shapeCast_self, broadcastTo_1b_ab_apply, Cert.LibMatmulBlock.matmul_zero_apply]
  exact dense_congr (h := fun c => A (ix2 p c)) hA B (fun q => b (ix2 (0 : Fin 1) q)) q

/-- A dense layer followed by the rectifier, likewise: the entrywise maximum of the layer with the splat of the
    all-zero pattern, read at (p, q). -/
theorem relu_layer_apply {m k : Nat}
    (w : DotDims.WF ⟨2, ![m, k]⟩ ⟨2, ![k, 128]⟩ ⟨2, ![m, 128]⟩ [1] [0] [0] [1] [] [])
    (hb : (⟨2, ![1, 128]⟩ : Shape).Broadcasts ⟨2, ![m, 128]⟩)
    (hs : (⟨2, ![1, 128]⟩ : Shape).ShapeCasts ⟨2, ![1, 128]⟩)
    (ht : FTy.bits .bf16 < FTy.bits .f32)
    (A : FVec Ideal ⟨2, ![m, k]⟩ .f32) (B : FVec Ideal ⟨2, ![k, 128]⟩ .f32) (b : FVec Ideal ⟨2, ![1, 128]⟩ .f32)
    (p : Fin m) (q : Fin 128) (h : Fin k → EReal) (hA : ∀ c, A (ix2 p c) = h c) :
    maximumf
        (addf (matmul (⟨[1], [0], [0], [1], [], [], w⟩ : DotDims ⟨2, ![m, k]⟩ ⟨2, ![k, 128]⟩ ⟨2, ![m, 128]⟩) none
            (truncf .bf16 A ht) (truncf .bf16 B ht) (constant (F := Ideal) ⟨2, ![m, 128]⟩ .f32 0x00000000#32))
          (broadcastTo ⟨2, ![m, 128]⟩ (shapeCast ⟨2, ![1, 128]⟩ b hs) hb))
        (broadcast ⟨2, ![m, 128]⟩ (Scalar.ofBits (F := Ideal) .f32 0x00000000#32)) (ix2 p q)
      = relu (dense h B (fun q => b (ix2 (0 : Fin 1) q))) q := by
  show FloatOps.maximumf (addf _ _ (ix2 p q)) _ = _
  rw [Ideal.maximumf_def, layer_apply w hb hs ht A B b p q h hA]
  rfl

/-- The stored block of the body with one layer, at (p, q): one dense layer of row p of the loaded block. -/
theorem pay0 (v0 : Vec Ideal S6000x32 .f32) (v2 : Vec Ideal S32x128 .f32) (v5 : Vec Ideal S1x128 .f32)
    (p : Fin 6000) (q : Fin 128) :
    k0_pay1 (F := Ideal) v0 v2 v5 (ix2 p q)
      = dense (fun k : Fin 32 => v0 (ix2 p k)) v2 (fun q => v5 (ix2 (0 : Fin 1) q)) q :=
  layer_apply dot_S6000x32_S32x128_S6000x128_1_0_0_1_n_n_wf broadcasts_S1x128_S6000x128 shapeCasts_S1x128_S1x128
    bitsLt_bf16_f32 v0 v2 v5 p q _ (fun _ => rfl)

/-- The stored block of the second body of the same text, at (p, q): the same dense layer. -/
theorem pay2 (v0 : Vec Ideal S6000x32 .f32) (v2 : Vec Ideal S32x128 .f32) (v5 : Vec Ideal S1x128 .f32)
    (p : Fin 6000) (q : Fin 128) :
    k2_pay1 (F := Ideal) v0 v2 v5 (ix2 p q)
      = dense (fun k : Fin 32 => v0 (ix2 p k)) v2 (fun q => v5 (ix2 (0 : Fin 1) q)) q :=
  layer_apply dot_S6000x32_S32x128_S6000x128_1_0_0_1_n_n_wf broadcasts_S1x128_S6000x128 shapeCasts_S1x128_S1x128
    bitsLt_bf16_f32 v0 v2 v5 p q _ (fun _ => rfl)

/-- The sum of two blocks, the first passed through a reshape to its own shape, read at an entry. -/
theorem add_cast_apply {s : Shape} (x y : FVec Ideal s .f32) (hs : s.ShapeCasts s) (i : s.Idx) :
    addf (shapeCast s x hs) y i = x i + y i := by
  show FloatOps.addf _ _ = _
  rw [shapeCast_self]; rfl

/-- The sum of two blocks, both passed through a reshape to their own shape, read at an entry. -/
theorem add_cast_cast_apply {s : Shape} (x y : FVec Ideal s .f32) (hs : s.ShapeCasts s) (i : s.Idx) :
    addf (shapeCast s x hs) (shapeCast s y hs) i = x i + y i := by
  show FloatOps.addf _ _ = _
  rw [shapeCast_self, shapeCast_self]; rfl

/-- The stored block of the body with two layers, at (p, q): two rectified dense layers of row p of the sum of the
    two loaded blocks. -/
theorem pay1 (v0 v2 : Vec Ideal S5000x128 .f32) (v5 : Vec Ideal S128x128 .f32) (v8 : Vec Ideal S1x128 .f32)
    (v14 : Vec Ideal S128x128 .f32) (v18 : Vec Ideal S1x128 .f32) (p : Fin 5000) (q : Fin 128) :
    k1_pay1 (F := Ideal) v0 v2 v5 v8 v14 v18 (ix2 p q)
      = relu (dense (relu (dense (fun j : Fin 128 => v0 (ix2 p j) + v2 (ix2 p j)) v5 (fun k => v8 (ix2 (0 : Fin 1) k))))
          v14 (fun k => v18 (ix2 (0 : Fin 1) k))) q :=
  relu_layer_apply dot_S5000x128_S128x128_S5000x128_1_0_0_1_n_n_wf broadcasts_S1x128_S5000x128 shapeCasts_S1x128_S1x128
    bitsLt_bf16_f32 _ v14 v18 p q _ fun c =>
  relu_layer_apply dot_S5000x128_S128x128_S5000x128_1_0_0_1_n_n_wf broadcasts_S1x128_S5000x128 shapeCasts_S1x128_S1x128
    bitsLt_bf16_f32 _ v5 v8 p c _ fun j =>
  add_cast_apply v0 v2 shapeCasts_S5000x128_S5000x128 (ix2 p j)

/-- The stored block of the body with four layers, at (p, q): three rectified dense layers of row p of the sum of
    the two loaded blocks (the value its first part hands on), then one dense layer without the rectifier. -/
theorem pay3 (v0 v2 : Vec Ideal S2000x128 .f32) (v6 : Vec Ideal S128x128 .f32) (v9 : Vec Ideal S1x128 .f32)
    (v15 : Vec Ideal S128x128 .f32) (v19 : Vec Ideal S1x128 .f32) (v25 : Vec Ideal S128x128 .f32)
    (v29 : Vec Ideal S1x128 .f32) (v35 : Vec Ideal S128x128 .f32) (v39 : Vec Ideal S1x128 .f32)
    (p : Fin 2000) (q : Fin 128) :
    k3_pay1 (F := Ideal) (k3_pay2 (F := Ideal) v0 v2 v6 v9 v15 v19 v25 v29) v35 v39 (ix2 p q)
      = dense (relu (dense (relu (dense (relu (dense (fun j : Fin 128 => v0 (ix2 p j) + v2 (ix2 p j))
            v6 (fun k => v9 (ix2 (0 : Fin 1) k))))
          v15 (fun k => v19 (ix2 (0 : Fin 1) k))))
        v25 (fun k => v29 (ix2 (0 : Fin 1) k))))
      v35 (fun k => v39 (ix2 (0 : Fin 1) k)) q :=
  layer_apply dot_S2000x128_S128x128_S2000x128_1_0_0_1_n_n_wf broadcasts_S1x128_S2000x128 shapeCasts_S1x128_S1x128
    bitsLt_bf16_f32 _ v35 v39 p q _ fun c3 =>
  relu_layer_apply dot_S2000x128_S128x128_S2000x128_1_0_0_1_n_n_wf broadcasts_S1x128_S2000x128 shapeCasts_S1x128_S1x128
    bitsLt_bf16_f32 _ v25 v29 p c3 _ fun c2 =>
  relu_layer_apply dot_S2000x128_S128x128_S2000x128_1_0_0_1_n_n_wf broadcasts_S1x128_S2000x128 shapeCasts_S1x128_S1x128
    bitsLt_bf16_f32 _ v15 v19 p c2 _ fun c1 =>
  relu_layer_apply dot_S2000x128_S128x128_S2000x128_1_0_0_1_n_n_wf broadcasts_S1x128_S2000x128 shapeCasts_S1x128_S1x128
    bitsLt_bf16_f32 _ v6 v9 p c1 _ fun j =>
  add_cast_cast_apply v0 v2 shapeCasts_S2000x128_S2000x128 (ix2 p j)

end Cert.Gine.Pay

end
-- ==== Proof.Embed0.lean ====
/-
  The first edge-embedding launch: what its output array holds.

  The launch cuts the 600000 edges into 100 blocks of 6000 consecutive edges. Grid point `t` reads rows
  `6000 t … 6000 t + 5999` of the edge attributes, the whole weight matrix and the whole bias row, and writes back rows
  `6000 t … 6000 t + 5999` of the output: entry `(p, q)` of its block is the dense layer of row `p` of the attribute
  block. Row `p` of block `t` is row `6000 t + p` of the array, so the block is the restriction of ONE function of the
  whole arrays — `E`: entry `(e, q)` is the dense layer of row `e` of the attributes — and the blocks cover the array:
  edge `e` lies in block `e / 6000`. Hence the output array ends as `E`.
-/
import proofs.«180991_j68848325755451_2_alg».proof.Proof.Gen.KernelIdeal.Frame
import proofs.«180991_j68848325755451_2_alg».proof.Proof.GineSpec
import Idealize.ShloMosaic.Lib.Pipeline.Value
import Idealize.ShloMosaic.Lib.ValueIdx

set_option maxRecDepth 16384

noncomputable section

namespace Cert.Gine.Embed0

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The embedding of the whole arrays: entry `(e, q)` is the dense layer of row `e` of the edge attributes. -/
def E (ea : S600000x32.Idx → EReal) (we : S32x128.Idx → EReal) (b : S1x128.Idx → EReal) : S600000x128.Idx → EReal :=
  fun i => dense (fun k : Fin 32 => ea (ix2 (i 0) k)) we (fun q => b (ix2 (0 : Fin 1) q)) (i 1)

/-- The block indices of the four windows at grid point `t`: the attribute and output windows move with the point
    along the edge axis, the weight and bias windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point `t` writes back is block `t` of `E` of the arrays the launch finds, given the body's stored value
    read entry by entry. -/
theorem flushed_eq
    (hpay : ∀ (x0 : Vec Ideal S6000x32 .f32) (x1 : Vec Ideal S32x128 .f32) (x2 : Vec Ideal S1x128 .f32) (p : Fin 6000) (q : Fin 128),
      k0_pay1 (F := Ideal) x0 x1 x2 (ix2 p q) = dense (fun k : Fin 32 => x0 (ix2 p k)) x1 (fun q => x2 (ix2 (0 : Fin 1) q)) q)
    (c : Dev nD) (t : Fin cfg0.N) :
    (dat0 V c).flushed 3 t = ((cfg0.win 3).blk t).view.read (Elt Ideal) (E (V c main_arg2) (V c main_arg7) (V c main_v4)) := by
  show (cfg0.win 3).cut (grid0.coords t) ((dat0 V c).after 3 t) = _
  rw [after0_3]
  unfold out0_3
  rw [View.canon_unit_zero hz]
  simp only [View.ld_unit_zero (S := S6000x32) hz, View.ld_unit_zero (S := S32x128) hz, View.ld_unit_zero (S := S1x128) hz]
  obtain ⟨e00, e01, e10, e11, e20, e21, e30, e31⟩ := idx_facts t
  funext j
  obtain ⟨p, q, rfl⟩ : ∃ (p : Fin 6000) (q : Fin 128), j = ix2 p q := ⟨j 0, j 1, eq_ix2 j⟩
  show k0_pay1 (F := Ideal) (iblk0 V c 0 t) (iblk0 V c 1 t) (iblk0 V c 2 t) (ix2 p q)
    = E (V c main_arg2) (V c main_arg7) (V c main_v4) (((cfg0.win 3).blk t).view.emb (ix2 p q))
  refine (hpay _ _ _ p q).trans ?_
  unfold E
  have hq : (((cfg0.win 3).blk t).view.emb (ix2 p q)) 1 = q :=
    Fin.ext (by show win0_3.index t (1 : Fin 2) * 128 + 1 * q.val = q.val; omega)
  have h0 : ∀ k : Fin 32, iblk0 V c 0 t (ix2 p k)
      = V c main_arg2 (ix2 ((((cfg0.win 3).blk t).view.emb (ix2 p q)) 0) k) := fun k => by
    show V c main_arg2 (((cfg0.win 0).blk t).view.emb (ix2 p k)) = _
    refine congrArg (V c main_arg2) (funext fun a => Fin.ext ?_)
    match a with
    | ⟨0, _⟩ => show win0_0.index t (0 : Fin 2) * 6000 + 1 * p.val = win0_3.index t (0 : Fin 2) * 6000 + 1 * p.val; omega
    | ⟨1, _⟩ => show win0_0.index t (1 : Fin 2) * 32 + 1 * k.val = k.val; omega
  have h1 : iblk0 V c 1 t = V c main_arg7 := funext fun y => by
    show V c main_arg7 (((cfg0.win 1).blk t).view.emb y) = _
    refine congrArg (V c main_arg7) (funext fun a => Fin.ext ?_)
    match a with
    | ⟨0, _⟩ => show win0_1.index t (0 : Fin 2) * 32 + 1 * (y 0).val = (y 0).val; omega
    | ⟨1, _⟩ => show win0_1.index t (1 : Fin 2) * 128 + 1 * (y 1).val = (y 1).val; omega
  have h2 : iblk0 V c 2 t = V c main_v4 := funext fun y => by
    show V c main_v4 (((cfg0.win 2).blk t).view.emb y) = _
    refine congrArg (V c main_v4) (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega
  rw [h1, h2, hq]
  exact dense_congr h0 _ _ q

/-- An index of the output array lies in point `t`'s block iff each coordinate lies in the block's range. -/
theorem mem_blk (t : Fin cfg0.N) (i : S600000x128.Idx) :
    i ∈ ((cfg0.win 3).blk t).view.set ↔ ∀ a : Fin 2, win0_3.index t a * S6000x128.size a ≤ (i a).val
      ∧ (i a).val < win0_3.index t a * S6000x128.size a + S6000x128.size a := by
  show i ∈ ((View.whole main_v5).slice (win0_3.rect t)).set ↔ _
  rw [View.set_slice_whole, Rect.mem_set_unit]
  exact Iff.rfl

/-- Every edge lies in a block: edge `e` in block `e / 6000`. -/
theorem cover (i : S600000x128.Idx) :
    ∃ t : Fin cfg0.N, (cfg0.win 3).flush t = true ∧ i ∈ ((cfg0.win 3).blk t).view.set := by
  have hi0 : (i 0).val < 600000 := (i 0).isLt
  have hi1 : (i 1).val < 128 := (i 1).isLt
  have hN : (i 0).val / 6000 < grid0.N := by rw [N_0]; omega
  obtain ⟨-, -, -, -, -, -, e30, e31⟩ := idx_facts ⟨(i 0).val / 6000, hN⟩
  refine ⟨⟨(i 0).val / 6000, hN⟩, flush0_3 _, ?_⟩
  rw [mem_blk]
  intro a
  match a with
  | ⟨0, _⟩ =>
    show win0_3.index ⟨(i 0).val / 6000, hN⟩ (0 : Fin 2) * 6000 ≤ (i 0).val
      ∧ (i 0).val < win0_3.index ⟨(i 0).val / 6000, hN⟩ (0 : Fin 2) * 6000 + 6000
    rw [e30]; show (i 0).val / 6000 * 6000 ≤ (i 0).val ∧ (i 0).val < (i 0).val / 6000 * 6000 + 6000; omega
  | ⟨1, _⟩ =>
    show win0_3.index ⟨(i 0).val / 6000, hN⟩ (1 : Fin 2) * 128 ≤ (i 1).val
      ∧ (i 1).val < win0_3.index ⟨(i 0).val / 6000, hN⟩ (1 : Fin 2) * 128 + 128
    omega

/-- The output array after the launch is `E` of the arrays the launch finds. -/
theorem final
    (hpay : ∀ (x0 : Vec Ideal S6000x32 .f32) (x1 : Vec Ideal S32x128 .f32) (x2 : Vec Ideal S1x128 .f32) (p : Fin 6000) (q : Fin 128),
      k0_pay1 (F := Ideal) x0 x1 x2 (ix2 p q) = dense (fun k : Fin 32 => x0 (ix2 p k)) x1 (fun q => x2 (ix2 (0 : Fin 1) q)) q)
    (c : Dev nD) :
    (dat0 V c).arrAt 3 cfg0.N = E (V c main_arg2) (V c main_arg7) (V c main_v4) :=
  (dat0 V c).arrAt_eq_of_cover 3 _ (fun t _ => flushed_eq V hpay c t) cover

end Cert.Gine.Embed0

end
-- ==== Proof.Embed2.lean ====
/-
  The second edge-embedding launch (the second layer's weights): what its output array holds.

  The launch cuts the 600000 edges into 100 blocks of 6000 consecutive edges. Grid point `t` reads rows
  `6000 t … 6000 t + 5999` of the edge attributes, the whole weight matrix and the whole bias row, and writes back rows
  `6000 t … 6000 t + 5999` of the output: entry `(p, q)` of its block is the dense layer of row `p` of the attribute
  block. Row `p` of block `t` is row `6000 t + p` of the array, so the block is the restriction of ONE function of the
  whole arrays — `E`: entry `(e, q)` is the dense layer of row `e` of the attributes — and the blocks cover the array:
  edge `e` lies in block `e / 6000`. Hence the output array ends as `E`.
-/
import proofs.«180991_j68848325755451_2_alg».proof.Proof.Gen.KernelIdeal.Frame
import proofs.«180991_j68848325755451_2_alg».proof.Proof.GineSpec
import proofs.«180991_j68848325755451_2_alg».proof.Proof.Embed0
import Idealize.ShloMosaic.Lib.Pipeline.Value
import Idealize.ShloMosaic.Lib.ValueIdx

set_option maxRecDepth 16384

noncomputable section

namespace Cert.Gine.Embed2

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The block indices of the four windows at grid point `t`: the attribute and output windows move with the point
    along the edge axis, the weight and bias windows stay. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point `t` writes back is block `t` of `E` of the arrays the launch finds, given the body's stored value
    read entry by entry. -/
theorem flushed_eq
    (hpay : ∀ (x0 : Vec Ideal S6000x32 .f32) (x1 : Vec Ideal S32x128 .f32) (x2 : Vec Ideal S1x128 .f32) (p : Fin 6000) (q : Fin 128),
      k2_pay1 (F := Ideal) x0 x1 x2 (ix2 p q) = dense (fun k : Fin 32 => x0 (ix2 p k)) x1 (fun q => x2 (ix2 (0 : Fin 1) q)) q)
    (c : Dev nD) (t : Fin cfg2.N) :
    (dat2 V c).flushed 3 t = ((cfg2.win 3).blk t).view.read (Elt Ideal) (Embed0.E (V c main_arg2) (V c main_arg13) (V c main_v22)) := by
  show (cfg2.win 3).cut (grid2.coords t) ((dat2 V c).after 3 t) = _
  rw [after2_3]
  unfold out2_3
  rw [View.canon_unit_zero Embed0.hz]
  simp only [View.ld_unit_zero (S := S6000x32) Embed0.hz, View.ld_unit_zero (S := S32x128) Embed0.hz, View.ld_unit_zero (S := S1x128) Embed0.hz]
  obtain ⟨e00, e01, e10, e11, e20, e21, e30, e31⟩ := idx_facts t
  funext j
  obtain ⟨p, q, rfl⟩ : ∃ (p : Fin 6000) (q : Fin 128), j = ix2 p q := ⟨j 0, j 1, eq_ix2 j⟩
  show k2_pay1 (F := Ideal) (iblk2 V c 0 t) (iblk2 V c 1 t) (iblk2 V c 2 t) (ix2 p q)
    = Embed0.E (V c main_arg2) (V c main_arg13) (V c main_v22) (((cfg2.win 3).blk t).view.emb (ix2 p q))
  refine (hpay _ _ _ p q).trans ?_
  unfold Embed0.E
  have hq : (((cfg2.win 3).blk t).view.emb (ix2 p q)) 1 = q :=
    Fin.ext (by show win2_3.index t (1 : Fin 2) * 128 + 1 * q.val = q.val; omega)
  have h0 : ∀ k : Fin 32, iblk2 V c 0 t (ix2 p k)
      = V c main_arg2 (ix2 ((((cfg2.win 3).blk t).view.emb (ix2 p q)) 0) k) := fun k => by
    show V c main_arg2 (((cfg2.win 0).blk t).view.emb (ix2 p k)) = _
    refine congrArg (V c main_arg2) (funext fun a => Fin.ext ?_)
    match a with
    | ⟨0, _⟩ => show win2_0.index t (0 : Fin 2) * 6000 + 1 * p.val = win2_3.index t (0 : Fin 2) * 6000 + 1 * p.val; omega
    | ⟨1, _⟩ => show win2_0.index t (1 : Fin 2) * 32 + 1 * k.val = k.val; omega
  have h1 : iblk2 V c 1 t = V c main_arg13 := funext fun y => by
    show V c main_arg13 (((cfg2.win 1).blk t).view.emb y) = _
    refine congrArg (V c main_arg13) (funext fun a => Fin.ext ?_)
    match a with
    | ⟨0, _⟩ => show win2_1.index t (0 : Fin 2) * 32 + 1 * (y 0).val = (y 0).val; omega
    | ⟨1, _⟩ => show win2_1.index t (1 : Fin 2) * 128 + 1 * (y 1).val = (y 1).val; omega
  have h2 : iblk2 V c 2 t = V c main_v22 := funext fun y => by
    show V c main_v22 (((cfg2.win 2).blk t).view.emb y) = _
    refine congrArg (V c main_v22) (funext fun a => Fin.ext ?_)
    match a with
    | ⟨0, _⟩ => show win2_2.index t (0 : Fin 2) * 1 + 1 * (y 0).val = (y 0).val; omega
    | ⟨1, _⟩ => show win2_2.index t (1 : Fin 2) * 128 + 1 * (y 1).val = (y 1).val; omega
  rw [h1, h2, hq]
  exact dense_congr h0 _ _ q

/-- An index of the output array lies in point `t`'s block iff each coordinate lies in the block's range. -/
theorem mem_blk (t : Fin cfg2.N) (i : S600000x128.Idx) :
    i ∈ ((cfg2.win 3).blk t).view.set ↔ ∀ a : Fin 2, win2_3.index t a * S6000x128.size a ≤ (i a).val
      ∧ (i a).val < win2_3.index t a * S6000x128.size a + S6000x128.size a := by
  show i ∈ ((View.whole main_v23).slice (win2_3.rect t)).set ↔ _
  rw [View.set_slice_whole, Rect.mem_set_unit]
  exact Iff.rfl

/-- Every edge lies in a block: edge `e` in block `e / 6000`. -/
theorem cover (i : S600000x128.Idx) :
    ∃ t : Fin cfg2.N, (cfg2.win 3).flush t = true ∧ i ∈ ((cfg2.win 3).blk t).view.set := by
  have hi0 : (i 0).val < 600000 := (i 0).isLt
  have hi1 : (i 1).val < 128 := (i 1).isLt
  have hN : (i 0).val / 6000 < grid2.N := by rw [N_2]; omega
  obtain ⟨-, -, -, -, -, -, e30, e31⟩ := idx_facts ⟨(i 0).val / 6000, hN⟩
  refine ⟨⟨(i 0).val / 6000, hN⟩, flush2_3 _, ?_⟩
  rw [mem_blk]
  intro a
  match a with
  | ⟨0, _⟩ =>
    show win2_3.index ⟨(i 0).val / 6000, hN⟩ (0 : Fin 2) * 6000 ≤ (i 0).val
      ∧ (i 0).val < win2_3.index ⟨(i 0).val / 6000, hN⟩ (0 : Fin 2) * 6000 + 6000
    rw [e30]; show (i 0).val / 6000 * 6000 ≤ (i 0).val ∧ (i 0).val < (i 0).val / 6000 * 6000 + 6000; omega
  | ⟨1, _⟩ =>
    show win2_3.index ⟨(i 0).val / 6000, hN⟩ (1 : Fin 2) * 128 ≤ (i 1).val
      ∧ (i 1).val < win2_3.index ⟨(i 0).val / 6000, hN⟩ (1 : Fin 2) * 128 + 128
    omega

/-- The output array after the launch is `E` of the arrays the launch finds. -/
theorem final
    (hpay : ∀ (x0 : Vec Ideal S6000x32 .f32) (x1 : Vec Ideal S32x128 .f32) (x2 : Vec Ideal S1x128 .f32) (p : Fin 6000) (q : Fin 128),
      k2_pay1 (F := Ideal) x0 x1 x2 (ix2 p q) = dense (fun k : Fin 32 => x0 (ix2 p k)) x1 (fun q => x2 (ix2 (0 : Fin 1) q)) q)
    (c : Dev nD) :
    (dat2 V c).arrAt 3 cfg2.N = Embed0.E (V c main_arg2) (V c main_arg13) (V c main_v22) :=
  (dat2 V c).arrAt_eq_of_cover 3 _ (fun t _ => flushed_eq V hpay c t) cover

end Cert.Gine.Embed2

end
-- ==== Proof.Mlp1.lean ====
/-
  The launch with two layers: what its output array holds.

  The launch cuts the 50000 rows into 10 blocks of 5000 consecutive rows. Grid point `t` reads rows
  `5000 t … 5000 t + 4999` of two arrays of 128 columns, both weight arrays and both bias rows whole, and writes back
  rows `5000 t … 5000 t + 4999` of the output: entry `(p, q)` of its block is two rectified dense layers of the sum of
  the rows `p` of the two blocks. Row `p` of block `t` is row `5000 t + p` of the array, so the block is the
  restriction of ONE function of the whole arrays — `H`: entry `(r, q)` is the two rectified layers of the sum of
  the rows `r` of the two arrays, at `q` — and the blocks cover the array: row `r` lies in block `r / 5000`. Hence
  the output array ends as `H`.
-/
import proofs.«180991_j68848325755451_2_alg».proof.Proof.Gen.KernelIdeal.Frame
import proofs.«180991_j68848325755451_2_alg».proof.Proof.GineSpec
import Idealize.ShloMosaic.Lib.Pipeline.Value
import Idealize.ShloMosaic.Lib.ValueIdx

set_option maxRecDepth 16384

noncomputable section

namespace Cert.Gine.Mlp1

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Two rectified dense layers on the whole arrays: entry `(r, q)` is, at `q`, the second rectified layer of the first
    rectified layer of the sum of the rows `r` of `agg` and `x`. -/
def H (agg x : S50000x128.Idx → EReal) (w1 : S128x128.Idx → EReal) (b1 : S1x128.Idx → EReal)
    (w2 : S128x128.Idx → EReal) (b2 : S1x128.Idx → EReal) : S50000x128.Idx → EReal :=
  fun i => relu (dense (relu (dense (fun j : Fin 128 => agg (ix2 (i 0) j) + x (ix2 (i 0) j)) w1 (fun k => b1 (ix2 (0 : Fin 1) k))))
    w2 (fun k => b2 (ix2 (0 : Fin 1) k))) (i 1)

/-- The block indices of the seven windows at grid point `t`: the two row-blocked inputs and the output move with the
    point along the row axis, the weight and bias windows stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What grid point `t` writes back is block `t` of `H` of the arrays the launch finds, given the body's stored value
    read entry by entry. -/
theorem flushed_eq
    (hpay : ∀ (v0 v2 : Vec Ideal S5000x128 .f32) (v5 : Vec Ideal S128x128 .f32) (v8 : Vec Ideal S1x128 .f32)
      (v14 : Vec Ideal S128x128 .f32) (v18 : Vec Ideal S1x128 .f32) (p : Fin 5000) (q : Fin 128),
      k1_pay1 (F := Ideal) v0 v2 v5 v8 v14 v18 (ix2 p q)
        = relu (dense (relu (dense (fun j : Fin 128 => v0 (ix2 p j) + v2 (ix2 p j)) v5 (fun k => v8 (ix2 (0 : Fin 1) k))))
            v14 (fun k => v18 (ix2 (0 : Fin 1) k))) q)
    (c : Dev nD) (t : Fin cfg1.N) :
    (dat1 V c).flushed 6 t = ((cfg1.win 6).blk t).view.read (Elt Ideal) (H (V c main_v18) (V c main_arg0) (V c main_arg3) (V c main_v19) (V c main_arg5) (V c main_v20)) := by
  show (cfg1.win 6).cut (grid1.coords t) ((dat1 V c).after 6 t) = _
  rw [after1_6]
  unfold out1_6
  rw [View.canon_unit_zero hz]
  simp only [View.ld_unit_zero (S := S5000x128) hz, View.ld_unit_zero (S := S128x128) hz, View.ld_unit_zero (S := S1x128) hz]
  obtain ⟨e00, e01, e10, e11, e20, e21, e30, e31, e40, e41, e50, e51, e60, e61⟩ := idx_facts t
  funext j
  obtain ⟨p, q, rfl⟩ : ∃ (p : Fin 5000) (q : Fin 128), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = H (V c main_v18) (V c main_arg0) (V c main_arg3) (V c main_v19) (V c main_arg5) (V c main_v20) (((cfg1.win 6).blk t).view.emb (ix2 p q))
  refine (hpay _ _ _ _ _ _ p q).trans ?_
  unfold H
  have hq : (((cfg1.win 6).blk t).view.emb (ix2 p q)) 1 = q :=
    Fin.ext (by show win1_6.index t (1 : Fin 2) * 128 + 1 * q.val = q.val; omega)
  have h0 : ∀ j : Fin 128, iblk1 V c 0 t (ix2 p j)
      = V c main_v18 (ix2 ((((cfg1.win 6).blk t).view.emb (ix2 p q)) 0) j) := fun j => by
    show V c main_v18 (((cfg1.win 0).blk t).view.emb (ix2 p j)) = _
    refine congrArg (V c main_v18) (funext fun a => Fin.ext ?_)
    match a with
    | ⟨0, _⟩ => show win1_0.index t (0 : Fin 2) * 5000 + 1 * p.val = win1_6.index t (0 : Fin 2) * 5000 + 1 * p.val; omega
    | ⟨1, _⟩ => show win1_0.index t (1 : Fin 2) * 128 + 1 * j.val = j.val; omega
  have h1 : ∀ j : Fin 128, iblk1 V c 1 t (ix2 p j)
      = V c main_arg0 (ix2 ((((cfg1.win 6).blk t).view.emb (ix2 p q)) 0) j) := fun j => by
    show V c main_arg0 (((cfg1.win 1).blk t).view.emb (ix2 p j)) = _
    refine congrArg (V c main_arg0) (funext fun a => Fin.ext ?_)
    match a with
    | ⟨0, _⟩ => show win1_1.index t (0 : Fin 2) * 5000 + 1 * p.val = win1_6.index t (0 : Fin 2) * 5000 + 1 * p.val; omega
    | ⟨1, _⟩ => show win1_1.index t (1 : Fin 2) * 128 + 1 * j.val = j.val; omega
  have h2 : iblk1 V c 2 t = V c main_arg3 := funext fun y => by
    show V c main_arg3 (((cfg1.win 2).blk t).view.emb y) = _
    refine congrArg (V c main_arg3) (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega
  have h3 : iblk1 V c 3 t = V c main_v19 := funext fun y => by
    show V c main_v19 (((cfg1.win 3).blk t).view.emb y) = _
    refine congrArg (V c main_v19) (funext fun a => Fin.ext ?_)
    match a with
    | ⟨0, _⟩ => show win1_3.index t (0 : Fin 2) * 1 + 1 * (y 0).val = (y 0).val; omega
    | ⟨1, _⟩ => show win1_3.index t (1 : Fin 2) * 128 + 1 * (y 1).val = (y 1).val; omega
  have h4 : iblk1 V c 4 t = V c main_arg5 := funext fun y => by
    show V c main_arg5 (((cfg1.win 4).blk t).view.emb y) = _
    refine congrArg (V c main_arg5) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have h5 : iblk1 V c 5 t = V c main_v20 := funext fun y => by
    show V c main_v20 (((cfg1.win 5).blk t).view.emb y) = _
    refine congrArg (V c main_v20) (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  rw [h2, h3, h4, h5, hq]
  refine congrArg (fun r : Fin 128 → EReal =>
    relu (dense (relu (dense r (V c main_arg3) (fun k => V c main_v19 (ix2 (0 : Fin 1) k))))
      (V c main_arg5) (fun k => V c main_v20 (ix2 (0 : Fin 1) k))) q) (funext fun j => ?_)
  rw [h0 j, h1 j]

/-- An index of the output array lies in point `t`'s block iff each coordinate lies in the block's range. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v21).slice (win1_6.rect t)).set ↔ _
  rw [View.set_slice_whole, Rect.mem_set_unit]
  exact Iff.rfl

/-- Every row lies in a block: row `r` in block `r / 5000`. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : (i 0).val / 5000 < grid1.N := by rw [N_1]; omega
  obtain ⟨-, -, -, -, -, -, -, -, -, -, -, -, e60, e61⟩ := idx_facts ⟨(i 0).val / 5000, hN⟩
  refine ⟨⟨(i 0).val / 5000, hN⟩, flush1_6 _, ?_⟩
  rw [mem_blk]
  intro a
  match a with
  | ⟨0, _⟩ =>
    show win1_6.index ⟨(i 0).val / 5000, hN⟩ (0 : Fin 2) * 5000 ≤ (i 0).val
      ∧ (i 0).val < win1_6.index ⟨(i 0).val / 5000, hN⟩ (0 : Fin 2) * 5000 + 5000
    rw [e60]; show (i 0).val / 5000 * 5000 ≤ (i 0).val ∧ (i 0).val < (i 0).val / 5000 * 5000 + 5000; omega
  | ⟨1, _⟩ =>
    show win1_6.index ⟨(i 0).val / 5000, hN⟩ (1 : Fin 2) * 128 ≤ (i 1).val
      ∧ (i 1).val < win1_6.index ⟨(i 0).val / 5000, hN⟩ (1 : Fin 2) * 128 + 128
    omega

/-- The output array after the launch is `H` of the arrays the launch finds. -/
theorem final
    (hpay : ∀ (v0 v2 : Vec Ideal S5000x128 .f32) (v5 : Vec Ideal S128x128 .f32) (v8 : Vec Ideal S1x128 .f32)
      (v14 : Vec Ideal S128x128 .f32) (v18 : Vec Ideal S1x128 .f32) (p : Fin 5000) (q : Fin 128),
      k1_pay1 (F := Ideal) v0 v2 v5 v8 v14 v18 (ix2 p q)
        = relu (dense (relu (dense (fun j : Fin 128 => v0 (ix2 p j) + v2 (ix2 p j)) v5 (fun k => v8 (ix2 (0 : Fin 1) k))))
            v14 (fun k => v18 (ix2 (0 : Fin 1) k))) q)
    (c : Dev nD) :
    (dat1 V c).arrAt 6 cfg1.N = H (V c main_v18) (V c main_arg0) (V c main_arg3) (V c main_v19) (V c main_arg5) (V c main_v20) :=
  (dat1 V c).arrAt_eq_of_cover 6 _ (fun t _ => flushed_eq V hpay c t) cover

end Cert.Gine.Mlp1

end
-- ==== Proof.Head3.lean ====
/-
  The launch with four layers: what its output array holds.

  The launch cuts the 50000 rows into 25 blocks of 2000 consecutive rows. Grid point `t` reads rows
  `2000 t … 2000 t + 1999` of two arrays of 128 columns, the four weight arrays and the four bias rows whole, and
  writes back rows `2000 t … 2000 t + 1999` of the output: entry `(p, q)` of its block is three rectified dense layers
  of the sum of the rows `p` of the two blocks, followed by one dense layer without the rectifier. Row `p` of block
  `t` is row `2000 t + p` of the array, so the block is the restriction of ONE function of the whole arrays — `Hd`:
  entry `(r, q)` is that chain of layers on the sum of the rows `r` of the two arrays, at `q` — and the blocks cover
  the array: row `r` lies in block `r / 2000`. Hence the output array ends as `Hd`.
-/
import proofs.«180991_j68848325755451_2_alg».proof.Proof.Gen.KernelIdeal.Frame
import proofs.«180991_j68848325755451_2_alg».proof.Proof.GineSpec
import Idealize.ShloMosaic.Lib.Pipeline.Value
import Idealize.ShloMosaic.Lib.ValueIdx

set_option maxRecDepth 16384

noncomputable section

namespace Cert.Gine.Head3

open Cert.KernelIdeal Cert.KernelIdeal.Gen Cert.Gine
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- Three rectified dense layers and a last dense layer on the whole arrays: entry `(r, q)` is, at `q`, the last layer
    of the three rectified layers of the sum of the rows `r` of `agg` and `x`. -/
def Hd (agg x : S50000x128.Idx → EReal) (w1 : S128x128.Idx → EReal) (b1 : S1x128.Idx → EReal)
    (w2 : S128x128.Idx → EReal) (b2 : S1x128.Idx → EReal) (w3 : S128x128.Idx → EReal) (b3 : S1x128.Idx → EReal)
    (w4 : S128x128.Idx → EReal) (b4 : S1x128.Idx → EReal) : S50000x128.Idx → EReal :=
  fun i => dense (relu (dense (relu (dense (relu (dense (fun j : Fin 128 => agg (ix2 (i 0) j) + x (ix2 (i 0) j))
          w1 (fun k => b1 (ix2 (0 : Fin 1) k))))
        w2 (fun k => b2 (ix2 (0 : Fin 1) k))))
      w3 (fun k => b3 (ix2 (0 : Fin 1) k))))
    w4 (fun k => b4 (ix2 (0 : Fin 1) k)) (i 1)

/-- Input window 0 moves with the point along the row axis. -/
theorem idx_0 : ∀ t : Fin cfg3.N, win3_0.index t (0 : Fin 2) = t.val ∧ win3_0.index t (1 : Fin 2) = 0 :=
  (by decide +kernel : ∀ t : Fin grid3.N, _)
/-- Input window 1 moves with the point along the row axis. -/
theorem idx_1 : ∀ t : Fin cfg3.N, win3_1.index t (0 : Fin 2) = t.val ∧ win3_1.index t (1 : Fin 2) = 0 :=
  (by decide +kernel : ∀ t : Fin grid3.N, _)
/-- Window 2 stays on its whole array. -/
theorem idx_2 : ∀ t : Fin cfg3.N, win3_2.index t (0 : Fin 2) = 0 ∧ win3_2.index t (1 : Fin 2) = 0 :=
  (by decide +kernel : ∀ t : Fin grid3.N, _)
/-- Window 3 stays on its whole array. -/
theorem idx_3 : ∀ t : Fin cfg3.N, win3_3.index t (0 : Fin 2) = 0 ∧ win3_3.index t (1 : Fin 2) = 0 :=
  (by decide +kernel : ∀ t : Fin grid3.N, _)
/-- Window 4 stays on its whole array. -/
theorem idx_4 : ∀ t : Fin cfg3.N, win3_4.index t (0 : Fin 2) = 0 ∧ win3_4.index t (1 : Fin 2) = 0 :=
  (by decide +kernel : ∀ t : Fin grid3.N, _)
/-- Window 5 stays on its whole array. -/
theorem idx_5 : ∀ t : Fin cfg3.N, win3_5.index t (0 : Fin 2) = 0 ∧ win3_5.index t (1 : Fin 2) = 0 :=
  (by decide +kernel : ∀ t : Fin grid3.N, _)
/-- Window 6 stays on its whole array. -/
theorem idx_6 : ∀ t : Fin cfg3.N, win3_6.index t (0 : Fin 2) = 0 ∧ win3_6.index t (1 : Fin 2) = 0 :=
  (by decide +kernel : ∀ t : Fin grid3.N, _)
/-- Window 7 stays on its whole array. -/
theorem idx_7 : ∀ t : Fin cfg3.N, win3_7.index t (0 : Fin 2) = 0 ∧ win3_7.index t (1 : Fin 2) = 0 :=
  (by decide +kernel : ∀ t : Fin grid3.N, _)
/-- Window 8 stays on its whole array. -/
theorem idx_8 : ∀ t : Fin cfg3.N, win3_8.index t (0 : Fin 2) = 0 ∧ win3_8.index t (1 : Fin 2) = 0 :=
  (by decide +kernel : ∀ t : Fin grid3.N, _)
/-- Window 9 stays on its whole array. -/
theorem idx_9 : ∀ t : Fin cfg3.N, win3_9.index t (0 : Fin 2) = 0 ∧ win3_9.index t (1 : Fin 2) = 0 :=
  (by decide +kernel : ∀ t : Fin grid3.N, _)
/-- The output window moves with the point along the row axis. -/
theorem idx_10 : ∀ t : Fin cfg3.N, win3_10.index t (0 : Fin 2) = t.val ∧ win3_10.index t (1 : Fin 2) = 0 :=
  (by decide +kernel : ∀ t : Fin grid3.N, _)

/-- Window 2's block at every point is its whole weight array. -/
theorem whole_2 (c : Dev nD) (t : Fin cfg3.N) : iblk3 V c 2 t = V c main_arg9 := by
  obtain ⟨e0, e1⟩ := idx_2 t
  funext y
  show V c main_arg9 (((cfg3.win 2).blk t).view.emb y) = _
  refine congrArg (V c main_arg9) (funext fun a => Fin.ext ?_)
  match a with
  | ⟨0, _⟩ => show win3_2.index t (0 : Fin 2) * 128 + 1 * (y 0).val = (y 0).val; omega
  | ⟨1, _⟩ => show win3_2.index t (1 : Fin 2) * 128 + 1 * (y 1).val = (y 1).val; omega

/-- Window 3's block at every point is its whole bias array. -/
theorem whole_3 (c : Dev nD) (t : Fin cfg3.N) : iblk3 V c 3 t = V c main_v37 := by
  obtain ⟨e0, e1⟩ := idx_3 t
  funext y
  show V c main_v37 (((cfg3.win 3).blk t).view.emb y) = _
  refine congrArg (V c main_v37) (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block at every point is its whole weight array. -/
theorem whole_4 (c : Dev nD) (t : Fin cfg3.N) : iblk3 V c 4 t = V c main_arg11 := by
  obtain ⟨e0, e1⟩ := idx_4 t
  funext y
  show V c main_arg11 (((cfg3.win 4).blk t).view.emb y) = _
  refine congrArg (V c main_arg11) (funext fun a => Fin.ext ?_)
  match a with
  | ⟨0, _⟩ => show win3_4.index t (0 : Fin 2) * 128 + 1 * (y 0).val = (y 0).val; omega
  | ⟨1, _⟩ => show win3_4.index t (1 : Fin 2) * 128 + 1 * (y 1).val = (y 1).val; omega

/-- Window 5's block at every point is its whole bias array. -/
theorem whole_5 (c : Dev nD) (t : Fin cfg3.N) : iblk3 V c 5 t = V c main_v38 := by
  obtain ⟨e0, e1⟩ := idx_5 t
  funext y
  show V c main_v38 (((cfg3.win 5).blk t).view.emb y) = _
  refine congrArg (V c main_v38) (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

/-- Window 6's block at every point is its whole weight array. -/
theorem whole_6 (c : Dev nD) (t : Fin cfg3.N) : iblk3 V c 6 t = V c main_arg15 := by
  obtain ⟨e0, e1⟩ := idx_6 t
  funext y
  show V c main_arg15 (((cfg3.win 6).blk t).view.emb y) = _
  refine congrArg (V c main_arg15) (funext fun a => Fin.ext ?_)
  match a with
  | ⟨0, _⟩ => show win3_6.index t (0 : Fin 2) * 128 + 1 * (y 0).val = (y 0).val; omega
  | ⟨1, _⟩ => show win3_6.index t (1 : Fin 2) * 128 + 1 * (y 1).val = (y 1).val; omega

/-- Window 7's block at every point is its whole bias array. -/
theorem whole_7 (c : Dev nD) (t : Fin cfg3.N) : iblk3 V c 7 t = V c main_v39 := by
  obtain ⟨e0, e1⟩ := idx_7 t
  funext y
  show V c main_v39 (((cfg3.win 7).blk t).view.emb y) = _
  refine congrArg (V c main_v39) (funext fun a => Fin.ext ?_)
  match a with
  | ⟨0, _⟩ => show win3_7.index t (0 : Fin 2) * 1 + 1 * (y 0).val = (y 0).val; omega
  | ⟨1, _⟩ => show win3_7.index t (1 : Fin 2) * 128 + 1 * (y 1).val = (y 1).val; omega

/-- Window 8's block at every point is its whole weight array. -/
theorem whole_8 (c : Dev nD) (t : Fin cfg3.N) : iblk3 V c 8 t = V c main_arg17 := by
  obtain ⟨e0, e1⟩ := idx_8 t
  funext y
  show V c main_arg17 (((cfg3.win 8).blk t).view.emb y) = _
  refine congrArg (V c main_arg17) (funext fun a => Fin.ext ?_)
  match a with
  | ⟨0, _⟩ => show win3_8.index t (0 : Fin 2) * 128 + 1 * (y 0).val = (y 0).val; omega
  | ⟨1, _⟩ => show win3_8.index t (1 : Fin 2) * 128 + 1 * (y 1).val = (y 1).val; omega

/-- Window 9's block at every point is its whole bias array. -/
theorem whole_9 (c : Dev nD) (t : Fin cfg3.N) : iblk3 V c 9 t = V c main_v40 := by
  obtain ⟨e0, e1⟩ := idx_9 t
  funext y
  show V c main_v40 (((cfg3.win 9).blk t).view.emb y) = _
  refine congrArg (V c main_v40) (funext fun a => Fin.ext ?_)
  match a with
  | ⟨0, _⟩ => show win3_9.index t (0 : Fin 2) * 1 + 1 * (y 0).val = (y 0).val; omega
  | ⟨1, _⟩ => show win3_9.index t (1 : Fin 2) * 128 + 1 * (y 1).val = (y 1).val; omega

/-- Row `p` of input window 0's block at point `t` is the array's row that the output block's row `p` lies on. -/
theorem row_0 (c : Dev nD) (t : Fin cfg3.N) (p : Fin 2000) (q j : Fin 128) :
    iblk3 V c 0 t (ix2 p j) = V c main_v36 (ix2 ((((cfg3.win 10).blk t).view.emb (ix2 p q)) 0) j) := by
  obtain ⟨e0, e1⟩ := idx_0 t
  obtain ⟨eo0, eo1⟩ := idx_10 t
  show V c main_v36 (((cfg3.win 0).blk t).view.emb (ix2 p j)) = _
  refine congrArg (V c main_v36) (funext fun a => Fin.ext ?_)
  match a with
  | ⟨0, _⟩ => show win3_0.index t (0 : Fin 2) * 2000 + 1 * p.val = win3_10.index t (0 : Fin 2) * 2000 + 1 * p.val; omega
  | ⟨1, _⟩ => show win3_0.index t (1 : Fin 2) * 128 + 1 * j.val = j.val; omega

/-- Row `p` of input window 1's block at point `t` is the array's row that the output block's row `p` lies on. -/
theorem row_1 (c : Dev nD) (t : Fin cfg3.N) (p : Fin 2000) (q j : Fin 128) :
    iblk3 V c 1 t (ix2 p j) = V c main_v21 (ix2 ((((cfg3.win 10).blk t).view.emb (ix2 p q)) 0) j) := by
  obtain ⟨e0, e1⟩ := idx_1 t
  obtain ⟨eo0, eo1⟩ := idx_10 t
  show V c main_v21 (((cfg3.win 1).blk t).view.emb (ix2 p j)) = _
  refine congrArg (V c main_v21) (funext fun a => Fin.ext ?_)
  match a with
  | ⟨0, _⟩ => show win3_1.index t (0 : Fin 2) * 2000 + 1 * p.val = win3_10.index t (0 : Fin 2) * 2000 + 1 * p.val; omega
  | ⟨1, _⟩ => show win3_1.index t (1 : Fin 2) * 128 + 1 * j.val = j.val; omega

/-- What grid point `t` writes back is block `t` of `Hd` of the arrays the launch finds, given the body's stored value
    read entry by entry. -/
theorem flushed_eq
    (hpay : ∀ (v0 v2 : Vec Ideal S2000x128 .f32) (v6 : Vec Ideal S128x128 .f32) (v9 : Vec Ideal S1x128 .f32)
      (v15 : Vec Ideal S128x128 .f32) (v19 : Vec Ideal S1x128 .f32) (v25 : Vec Ideal S128x128 .f32)
      (v29 : Vec Ideal S1x128 .f32) (v35 : Vec Ideal S128x128 .f32) (v39 : Vec Ideal S1x128 .f32)
      (p : Fin 2000) (q : Fin 128),
      k3_pay1 (F := Ideal) (k3_pay2 (F := Ideal) v0 v2 v6 v9 v15 v19 v25 v29) v35 v39 (ix2 p q)
        = dense (relu (dense (relu (dense (relu (dense (fun j : Fin 128 => v0 (ix2 p j) + v2 (ix2 p j))
              v6 (fun k => v9 (ix2 (0 : Fin 1) k))))
            v15 (fun k => v19 (ix2 (0 : Fin 1) k))))
          v25 (fun k => v29 (ix2 (0 : Fin 1) k))))
        v35 (fun k => v39 (ix2 (0 : Fin 1) k)) q)
    (c : Dev nD) (t : Fin cfg3.N) :
    (dat3 V c).flushed 10 t = ((cfg3.win 10).blk t).view.read (Elt Ideal) (Hd (V c main_v36) (V c main_v21) (V c main_arg9) (V c main_v37) (V c main_arg11) (V c main_v38)
      (V c main_arg15) (V c main_v39) (V c main_arg17) (V c main_v40)) := by
  show (cfg3.win 10).cut (grid3.coords t) ((dat3 V c).after 10 t) = _
  rw [after3_10]
  unfold out3_10
  rw [View.canon_unit_zero hz]
  simp only [View.ld_unit_zero (S := S2000x128) hz, View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k3_pay1 (F := Ideal) (k3_pay2 (F := Ideal) (iblk3 V c 0 t) (iblk3 V c 1 t) (iblk3 V c 2 t) (iblk3 V c 3 t) (iblk3 V c 4 t)
      (iblk3 V c 5 t) (iblk3 V c 6 t) (iblk3 V c 7 t)) (iblk3 V c 8 t) (iblk3 V c 9 t) (ix2 p q)
    = Hd (V c main_v36) (V c main_v21) (V c main_arg9) (V c main_v37) (V c main_arg11) (V c main_v38)
      (V c main_arg15) (V c main_v39) (V c main_arg17) (V c main_v40) (((cfg3.win 10).blk t).view.emb (ix2 p q))
  refine (hpay _ _ _ _ _ _ _ _ _ _ p q).trans ?_
  unfold Hd
  have hq : (((cfg3.win 10).blk t).view.emb (ix2 p q)) 1 = q :=
    Fin.ext (by have e1 := (idx_10 t).2; show win3_10.index t (1 : Fin 2) * 128 + 1 * q.val = q.val; omega)
  rw [whole_2, whole_3, whole_4, whole_5, whole_6, whole_7, whole_8, whole_9, hq]
  refine congrArg (fun r : Fin 128 → EReal =>
    dense (relu (dense (relu (dense (relu (dense r (V c main_arg9) (fun k => V c main_v37 (ix2 (0 : Fin 1) k))))
          (V c main_arg11) (fun k => V c main_v38 (ix2 (0 : Fin 1) k))))
        (V c main_arg15) (fun k => V c main_v39 (ix2 (0 : Fin 1) k))))
      (V c main_arg17) (fun k => V c main_v40 (ix2 (0 : Fin 1) k)) q) (funext fun j => ?_)
  rw [row_0 V c t p q j, row_1 V c t p q j]

/-- An index of the output array lies in point `t`'s block iff each coordinate lies in the block's range. -/
theorem mem_blk (t : Fin cfg3.N) (i : S50000x128.Idx) :
    i ∈ ((cfg3.win 10).blk t).view.set ↔ ∀ a : Fin 2, win3_10.index t a * S2000x128.size a ≤ (i a).val
      ∧ (i a).val < win3_10.index t a * S2000x128.size a + S2000x128.size a := by
  show i ∈ ((View.whole main_v41).slice (win3_10.rect t)).set ↔ _
  rw [View.set_slice_whole, Rect.mem_set_unit]
  exact Iff.rfl

/-- Every row lies in a block: row `r` in block `r / 2000`. -/
theorem cover (i : S50000x128.Idx) :
    ∃ t : Fin cfg3.N, (cfg3.win 10).flush t = true ∧ i ∈ ((cfg3.win 10).blk t).view.set := by
  have hi0 : (i 0).val < 50000 := (i 0).isLt
  have hi1 : (i 1).val < 128 := (i 1).isLt
  have hN : (i 0).val / 2000 < grid3.N := by rw [N_3]; omega
  obtain ⟨e10_0, e10_1⟩ := idx_10 ⟨(i 0).val / 2000, hN⟩
  refine ⟨⟨(i 0).val / 2000, hN⟩, flush3_10 _, ?_⟩
  rw [mem_blk]
  intro a
  match a with
  | ⟨0, _⟩ =>
    show win3_10.index ⟨(i 0).val / 2000, hN⟩ (0 : Fin 2) * 2000 ≤ (i 0).val
      ∧ (i 0).val < win3_10.index ⟨(i 0).val / 2000, hN⟩ (0 : Fin 2) * 2000 + 2000
    rw [e10_0]; show (i 0).val / 2000 * 2000 ≤ (i 0).val ∧ (i 0).val < (i 0).val / 2000 * 2000 + 2000; omega
  | ⟨1, _⟩ =>
    show win3_10.index ⟨(i 0).val / 2000, hN⟩ (1 : Fin 2) * 128 ≤ (i 1).val
      ∧ (i 1).val < win3_10.index ⟨(i 0).val / 2000, hN⟩ (1 : Fin 2) * 128 + 128
    omega

/-- The output array after the launch is `Hd` of the arrays the launch finds. -/
theorem final
    (hpay : ∀ (v0 v2 : Vec Ideal S2000x128 .f32) (v6 : Vec Ideal S128x128 .f32) (v9 : Vec Ideal S1x128 .f32)
      (v15 : Vec Ideal S128x128 .f32) (v19 : Vec Ideal S1x128 .f32) (v25 : Vec Ideal S128x128 .f32)
      (v29 : Vec Ideal S1x128 .f32) (v35 : Vec Ideal S128x128 .f32) (v39 : Vec Ideal S1x128 .f32)
      (p : Fin 2000) (q : Fin 128),
      k3_pay1 (F := Ideal) (k3_pay2 (F := Ideal) v0 v2 v6 v9 v15 v19 v25 v29) v35 v39 (ix2 p q)
        = dense (relu (dense (relu (dense (relu (dense (fun j : Fin 128 => v0 (ix2 p j) + v2 (ix2 p j))
              v6 (fun k => v9 (ix2 (0 : Fin 1) k))))
            v15 (fun k => v19 (ix2 (0 : Fin 1) k))))
          v25 (fun k => v29 (ix2 (0 : Fin 1) k))))
        v35 (fun k => v39 (ix2 (0 : Fin 1) k)) q)
    (c : Dev nD) :
    (dat3 V c).arrAt 10 cfg3.N = Hd (V c main_v36) (V c main_v21) (V c main_arg9) (V c main_v37) (V c main_arg11) (V c main_v38)
      (V c main_arg15) (V c main_v39) (V c main_arg17) (V c main_v40) :=
  (dat3 V c).arrAt_eq_of_cover 10 _ (fun t _ => flushed_eq V hpay c t) cover

end Cert.Gine.Head3

end
-- ==== Proof.KDefs.lean ====
/-
  The four arrays the kernel program computes, as functions of its argument arrays.

  `K0` is an edge embedding (the dense layer of each edge's attribute row); the first layer's node array `K1` is the
  two-layer perceptron, rectified, of "aggregated messages plus node features", the messages aggregated over the
  first embedding; the result `K3` is the second layer's perceptron, rectified, followed by the two-layer output head,
  of "aggregated messages plus `K1`", the messages aggregated over the second embedding. A bias vector enters each
  launch reshaped to a one-row array.
-/
import proofs.«180991_j68848325755451_2_alg».proof.Proof.Embed0
import proofs.«180991_j68848325755451_2_alg».proof.Proof.Mlp1
import proofs.«180991_j68848325755451_2_alg».proof.Proof.Head3
import proofs.«180991_j68848325755451_2_alg».proof.Proof.GineAgg
import Idealize.ShloMosaic.Lib.Pipeline.Value

noncomputable section

namespace Cert.Gine.K

open Cert.Gine Cert.ReferenceIdeal
open Idealize.ShloMosaic Idealize.ShloMosaic.ValueIdx

/-- A bias vector reshaped to a one-row array. -/
def row (v : (⟨S128, .f32⟩ : BufTy).Contents (Elt Ideal)) : Cert.KernelIdeal.S1x128.Idx → EReal :=
  shapeCast Cert.KernelIdeal.S1x128 v Cert.KernelIdeal.Gen.shapeCasts_S128_S1x128

/-- Entry `(0, k)` of the row is entry `k` of the vector. -/
theorem row_apply (v : (⟨S128, .f32⟩ : BufTy).Contents (Elt Ideal)) (k : Fin 128) : row v (ix2 (0 : Fin 1) k) = v (ix1 k) :=
  shapeCast_apply v Cert.KernelIdeal.Gen.shapeCasts_S128_S1x128 (ix2 (0 : Fin 1) k) (ix1 k)
    (by rewrite [Shape.rowMajor_val_two, Shape.rowMajor_val_one]; show k.val = 0 * 128 + k.val; omega)

/-- An edge embedding: the dense layer of each edge's attribute row. -/
def K0 (x2 : (⟨S600000x32, .f32⟩ : BufTy).Contents (Elt Ideal)) (w : (⟨S32x128, .f32⟩ : BufTy).Contents (Elt Ideal))
    (b : (⟨S128, .f32⟩ : BufTy).Contents (Elt Ideal)) : FVec Ideal Cert.KernelIdeal.S600000x128 .bf16 :=
  Embed0.E x2 w (row b)

/-- The first layer's node array. -/
def K1 (x0 : (⟨S50000x128, .f32⟩ : BufTy).Contents (Elt Ideal)) (x1 : (⟨S2x600000, .i32⟩ : BufTy).Contents (Elt Ideal))
    (x2 : (⟨S600000x32, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S32x128, .f32⟩ : BufTy).Contents (Elt Ideal))
    (x8 : (⟨S128, .f32⟩ : BufTy).Contents (Elt Ideal)) : (⟨S50000x128, .f32⟩ : BufTy).Contents (Elt Ideal) :=
  Mlp1.H (agg x0 x1 (extf .f32 (K0 x2 x7 x8) Cert.KernelIdeal.Gen.bitsLt_bf16_f32)) x0 x3 (row x4) x5 (row x6)

/-- The result array. -/
def K3 (x0 : (⟨S50000x128, .f32⟩ : BufTy).Contents (Elt Ideal)) (x1 : (⟨S2x600000, .i32⟩ : BufTy).Contents (Elt Ideal))
    (x2 : (⟨S600000x32, .f32⟩ : BufTy).Contents (Elt Ideal)) (x3 : (⟨S128x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S32x128, .f32⟩ : BufTy).Contents (Elt Ideal))
    (x8 : (⟨S128, .f32⟩ : BufTy).Contents (Elt Ideal)) (x9 : (⟨S128x128, .f32⟩ : BufTy).Contents (Elt Ideal))
    (x10 : (⟨S128, .f32⟩ : BufTy).Contents (Elt Ideal)) (x11 : (⟨S128x128, .f32⟩ : BufTy).Contents (Elt Ideal))
    (x12 : (⟨S128, .f32⟩ : BufTy).Contents (Elt Ideal)) (x13 : (⟨S32x128, .f32⟩ : BufTy).Contents (Elt Ideal))
    (x14 : (⟨S128, .f32⟩ : BufTy).Contents (Elt Ideal)) (x15 : (⟨S128x128, .f32⟩ : BufTy).Contents (Elt Ideal))
    (x16 : (⟨S128, .f32⟩ : BufTy).Contents (Elt Ideal)) (x17 : (⟨S128x128, .f32⟩ : BufTy).Contents (Elt Ideal))
    (x18 : (⟨S128, .f32⟩ : BufTy).Contents (Elt Ideal)) : (⟨S50000x128, .f32⟩ : BufTy).Contents (Elt Ideal) :=
  Head3.Hd (agg (K1 x0 x1 x2 x3 x4 x5 x6 x7 x8) x1 (extf .f32 (K0 x2 x13 x14) Cert.KernelIdeal.Gen.bitsLt_bf16_f32))
    (K1 x0 x1 x2 x3 x4 x5 x6 x7 x8) x9 (row x10) x11 (row x12) x15 (row x16) x17 (row x18)

end Cert.Gine.K

end
-- ==== Proof.KValue.lean ====
/-
  The kernel program's result, as a function of its arguments.

  The result buffer holds the last launch's output array; each launch's output array is its whole-array function of the
  buffers the launch finds; and those buffers are arguments, reshaped biases, the previous launches' outputs, or the
  aggregation of them. Substituting from the last launch back to the first gives the result as `K3` of the argument
  arrays at launch.
-/
import proofs.«180991_j68848325755451_2_alg».proof.Proof.KRun
import proofs.«180991_j68848325755451_2_alg».proof.Proof.Folds
import proofs.«180991_j68848325755451_2_alg».proof.Proof.Payloads
import proofs.«180991_j68848325755451_2_alg».proof.Proof.Embed0
import proofs.«180991_j68848325755451_2_alg».proof.Proof.Embed2
import proofs.«180991_j68848325755451_2_alg».proof.Proof.Mlp1
import proofs.«180991_j68848325755451_2_alg».proof.Proof.Head3
import proofs.«180991_j68848325755451_2_alg».proof.Proof.KDefs

set_option maxRecDepth 16384

noncomputable section

namespace Cert.Gine.KValue

open Cert.KernelIdeal Cert.KernelIdeal.Gen Cert.Gine
open Idealize.ShloMosaic Idealize.ShloMosaic.TcCoe Idealize.SL.Sem

variable (m : (ℓ : Loc nD τ sig) → Buf (Elt Ideal) ℓ) (ρ : Dev nD → PrngReg)

/-- The first embedding launch's output array. -/
theorem o0 (c : Dev nD) : (dat0 (V1 m ρ) c).arrAt 3 cfg0.N = K.K0 (m ((c.tc : Thread nD τ).loc main_arg2)) (m ((c.tc : Thread nD τ).loc main_arg7)) (m ((c.tc : Thread nD τ).loc main_arg8)) :=
  (Embed0.final (V1 m ρ) Pay.pay0 c).trans (by
    rw [Fold.V1_arg2 m ρ c, Fold.V1_arg7 m ρ c, Fold.V1_v4 m ρ c]; rfl)

/-- The second embedding launch's output array. -/
theorem o2 (c : Dev nD) : (dat2 (V7 m ρ) c).arrAt 3 cfg2.N = K.K0 (m ((c.tc : Thread nD τ).loc main_arg2)) (m ((c.tc : Thread nD τ).loc main_arg13)) (m ((c.tc : Thread nD τ).loc main_arg14)) :=
  (Embed2.final (V7 m ρ) Pay.pay2 c).trans (by
    rw [Fold.V7_arg2 m ρ c, Fold.V7_arg13 m ρ c, Fold.V7_v22 m ρ c]; rfl)

/-- The first node launch's output array, from the buffers the launch finds. -/
theorem o1_of (V : (c : Dev nD) → (b : Ref sig .tc) → Buf (Elt Ideal) ((c : Thread nD τ).loc b)) (c : Dev nD)
    (a x : S50000x128.Idx → EReal) (w1 : S128x128.Idx → EReal) (b1 : S1x128.Idx → EReal) (w2 : S128x128.Idx → EReal)
    (b2 : S1x128.Idx → EReal)
    (ha : V c main_v18 = a) (hx : V c main_arg0 = x) (hw1 : V c main_arg3 = w1) (hb1 : V c main_v19 = b1)
    (hw2 : V c main_arg5 = w2) (hb2 : V c main_v20 = b2) :
    (dat1 V c).arrAt 6 cfg1.N = Mlp1.H a x w1 b1 w2 b2 := by
  rw [Mlp1.final V Pay.pay1 c, ha, hx, hw1, hb1, hw2, hb2]

/-- The last launch's output array, from the buffers the launch finds. -/
theorem o3_of (V : (c : Dev nD) → (b : Ref sig .tc) → Buf (Elt Ideal) ((c : Thread nD τ).loc b)) (c : Dev nD)
    (a x : S50000x128.Idx → EReal) (w1 : S128x128.Idx → EReal) (b1 : S1x128.Idx → EReal) (w2 : S128x128.Idx → EReal)
    (b2 : S1x128.Idx → EReal) (w3 : S128x128.Idx → EReal) (b3 : S1x128.Idx → EReal) (w4 : S128x128.Idx → EReal)
    (b4 : S1x128.Idx → EReal)
    (ha : V c main_v36 = a) (hx : V c main_v21 = x) (hw1 : V c main_arg9 = w1) (hb1 : V c main_v37 = b1)
    (hw2 : V c main_arg11 = w2) (hb2 : V c main_v38 = b2) (hw3 : V c main_arg15 = w3) (hb3 : V c main_v39 = b3)
    (hw4 : V c main_arg17 = w4) (hb4 : V c main_v40 = b4) :
    (dat3 V c).arrAt 10 cfg3.N = Head3.Hd a x w1 b1 w2 b2 w3 b3 w4 b4 := by
  rw [Head3.final V Pay.pay3 c, ha, hx, hw1, hb1, hw2, hb2, hw3, hb3, hw4, hb4]

/-- Messages aggregated over an embedding array that is known: substitute it. -/
theorem agg_of (v : S50000x128.Idx → EReal) (x : S50000x128.Idx → EReal) (ei : S2x600000.Idx → BitVec 32)
    (o k : FVec Ideal S600000x128 .bf16)
    (h : v = agg x ei (extf .f32 o bitsLt_bf16_f32)) (ho : o = k) : v = agg x ei (extf .f32 k bitsLt_bf16_f32) := by
  subst ho; exact h

/-- The same, the node array substituted as well. -/
theorem agg_of2 (v : S50000x128.Idx → EReal) (x x' : S50000x128.Idx → EReal) (ei : S2x600000.Idx → BitVec 32)
    (o k : FVec Ideal S600000x128 .bf16)
    (h : v = agg x ei (extf .f32 o bitsLt_bf16_f32)) (hx : x = x') (ho : o = k) :
    v = agg x' ei (extf .f32 k bitsLt_bf16_f32) := by
  subst hx ho; exact h

/-- The messages the first node launch finds: the aggregation over the node features and the first embedding. -/
theorem a1 (c : Dev nD) : V5 m ρ c main_v18
    = agg (m ((c.tc : Thread nD τ).loc main_arg0)) (m ((c.tc : Thread nD τ).loc main_arg1)) (extf .f32 (K.K0 (m ((c.tc : Thread nD τ).loc main_arg2)) (m ((c.tc : Thread nD τ).loc main_arg7)) (m ((c.tc : Thread nD τ).loc main_arg8))) bitsLt_bf16_f32) :=
  agg_of (V5 m ρ c main_v18) (m ((c.tc : Thread nD τ).loc main_arg0)) (m ((c.tc : Thread nD τ).loc main_arg1)) ((dat0 (V1 m ρ) c).arrAt 3 cfg0.N) (K.K0 (m ((c.tc : Thread nD τ).loc main_arg2)) (m ((c.tc : Thread nD τ).loc main_arg7)) (m ((c.tc : Thread nD τ).loc main_arg8)))
    (Fold.V5_v18 m ρ c) (o0 m ρ c)

/-- The first node launch's output array. -/
theorem o1 (c : Dev nD) : (dat1 (V5 m ρ) c).arrAt 6 cfg1.N = K.K1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  o1_of (V5 m ρ) c (agg (m ((c.tc : Thread nD τ).loc main_arg0)) (m ((c.tc : Thread nD τ).loc main_arg1)) (extf .f32 (K.K0 (m ((c.tc : Thread nD τ).loc main_arg2)) (m ((c.tc : Thread nD τ).loc main_arg7)) (m ((c.tc : Thread nD τ).loc main_arg8))) bitsLt_bf16_f32))
    (m ((c.tc : Thread nD τ).loc main_arg0)) (m ((c.tc : Thread nD τ).loc main_arg3)) (K.row (m ((c.tc : Thread nD τ).loc main_arg4))) (m ((c.tc : Thread nD τ).loc main_arg5)) (K.row (m ((c.tc : Thread nD τ).loc main_arg6)))
    (a1 m ρ c) (Fold.V5_arg0 m ρ c) (Fold.V5_arg3 m ρ c) (Fold.V5_v19 m ρ c) (Fold.V5_arg5 m ρ c) (Fold.V5_v20 m ρ c)

/-- The messages the last launch finds: the aggregation over the first layer's node array and the second embedding. -/
theorem a3 (c : Dev nD) : V11 m ρ c main_v36
    = agg (K.K1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (extf .f32 (K.K0 (m ((c.tc : Thread nD τ).loc main_arg2)) (m ((c.tc : Thread nD τ).loc main_arg13)) (m ((c.tc : Thread nD τ).loc main_arg14))) bitsLt_bf16_f32) :=
  agg_of2 (V11 m ρ c main_v36) ((dat1 (V5 m ρ) c).arrAt 6 cfg1.N) (K.K1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1))
    ((dat2 (V7 m ρ) c).arrAt 3 cfg2.N) (K.K0 (m ((c.tc : Thread nD τ).loc main_arg2)) (m ((c.tc : Thread nD τ).loc main_arg13)) (m ((c.tc : Thread nD τ).loc main_arg14)))
    (Fold.V11_v36 m ρ c) (o1 m ρ c) (o2 m ρ c)

/-- The first layer's node array, as the last launch finds it. -/
theorem x3 (c : Dev nD) : V11 m ρ c main_v21 = K.K1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  (Fold.V11_v21 m ρ c).trans (o1 m ρ c)

/-- The result buffer at the last boundary is `K3` of the argument arrays at launch. -/
theorem value (c : Dev nD) :
    W12 m ρ c (Proc.devRef .tc main_v41) = K.K3 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) :=
  (Fold.result m ρ c).trans (o3_of (V11 m ρ) c
    (agg (K.K1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg1)) (extf .f32 (K.K0 (m ((c.tc : Thread nD τ).loc main_arg2)) (m ((c.tc : Thread nD τ).loc main_arg13)) (m ((c.tc : Thread nD τ).loc main_arg14))) bitsLt_bf16_f32))
    (K.K1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))) (m ((c.tc : Thread nD τ).loc main_arg9)) (K.row (m ((c.tc : Thread nD τ).loc main_arg10))) (m ((c.tc : Thread nD τ).loc main_arg11)) (K.row (m ((c.tc : Thread nD τ).loc main_arg12))) (m ((c.tc : Thread nD τ).loc main_arg15)) (K.row (m ((c.tc : Thread nD τ).loc main_arg16))) (m ((c.tc : Thread nD τ).loc main_arg17)) (K.row (m ((c.tc : Thread nD τ).loc main_arg18)))
    (a3 m ρ c) (x3 m ρ c)
    (Fold.V11_arg9 m ρ c) (Fold.V11_v37 m ρ c) (Fold.V11_arg11 m ρ c) (Fold.V11_v38 m ρ c)
    (Fold.V11_arg15 m ρ c) (Fold.V11_v39 m ρ c) (Fold.V11_arg17 m ρ c) (Fold.V11_v40 m ρ c))

end Cert.Gine.KValue

end
-- ==== Proof.RefRows.lean ====
/-
  The reference program's stages, read one entry at a time.

  Every stage after a neighbourhood sum acts ROW BY ROW. A matrix product followed by the addition of a bias row is, at
  entry `(r, q)`, the dense layer `dense` of row `r` of its left operand at column `q`; a maximum with the all-zero
  constant is the rectifier `relu` of the row. Each such stage is first read at `(r, q)` from the stage before it; the
  readings are then chained, so that a whole multi-layer perceptron at `(r, q)` is a nest of `dense` / `relu` applied to
  row `r` of its input. The two neighbourhood sums themselves are left as they are.
-/
import proofs.«180991_j68848325755451_2_alg».proof.Proof.Gen.ReferenceIdeal.Read
import proofs.«180991_j68848325755451_2_alg».proof.Proof.GineSpec

noncomputable section

namespace Cert.Gine.Ref

open Cert.ReferenceIdeal Cert.ReferenceIdeal.Read Cert.Gine Idealize.ShloMosaic Idealize.ShloMosaic.ValueIdx

/-- The rectifier depends on its row only through the row's entries. -/
theorem relu_congr {N : ℕ} {v v' : Fin N → EReal} (e : ∀ k, v k = v' k) (q : Fin N) : relu v q = relu v' q := by
  rw [show v = v' from funext e]

/-! ## Index bookkeeping

At the entry `(r, q)` of a product `L · W`, the `k`-th term reads `L` at `(r, k)` and `W` at `(k, q)`; a bias vector
broadcast first to a one-row matrix and then to all rows is read, at `(r, q)`, at `q`. -/

theorem lidx4 (r : Fin 600000) (q : Fin 128) (k : Fin 32) : lidx_main_v4 (ix2 r q) k = ix2 r k :=
  funext fun a => by match a with | ⟨0, _⟩ => rfl | ⟨1, _⟩ => rfl
theorem ridx4 (r : Fin 600000) (q : Fin 128) (k : Fin 32) : ridx_main_v4 (ix2 r q) k = ix2 k q :=
  funext fun a => by match a with | ⟨0, _⟩ => rfl | ⟨1, _⟩ => rfl
theorem bidx6 (r : Fin 600000) (q : Fin 128) : idx_main_v5 (idx_main_v6 (ix2 r q)) = ix1 q :=
  funext fun a => by match a with | ⟨0, _⟩ => rfl
theorem lidx32 (r : Fin 600000) (q : Fin 128) (k : Fin 32) : lidx_main_v32 (ix2 r q) k = ix2 r k :=
  funext fun a => by match a with | ⟨0, _⟩ => rfl | ⟨1, _⟩ => rfl
theorem ridx32 (r : Fin 600000) (q : Fin 128) (k : Fin 32) : ridx_main_v32 (ix2 r q) k = ix2 k q :=
  funext fun a => by match a with | ⟨0, _⟩ => rfl | ⟨1, _⟩ => rfl
theorem bidx34 (r : Fin 600000) (q : Fin 128) : idx_main_v33 (idx_main_v34 (ix2 r q)) = ix1 q :=
  funext fun a => by match a with | ⟨0, _⟩ => rfl
theorem lidx21 (r : Fin 50000) (q : Fin 128) (k : Fin 128) : lidx_main_v21 (ix2 r q) k = ix2 r k :=
  funext fun a => by match a with | ⟨0, _⟩ => rfl | ⟨1, _⟩ => rfl
theorem ridx21 (r : Fin 50000) (q : Fin 128) (k : Fin 128) : ridx_main_v21 (ix2 r q) k = ix2 k q :=
  funext fun a => by match a with | ⟨0, _⟩ => rfl | ⟨1, _⟩ => rfl
theorem bidx23 (r : Fin 50000) (q : Fin 128) : idx_main_v22 (idx_main_v23 (ix2 r q)) = ix1 q :=
  funext fun a => by match a with | ⟨0, _⟩ => rfl
theorem lidx27 (r : Fin 50000) (q : Fin 128) (k : Fin 128) : lidx_main_v27 (ix2 r q) k = ix2 r k :=
  funext fun a => by match a with | ⟨0, _⟩ => rfl | ⟨1, _⟩ => rfl
theorem ridx27 (r : Fin 50000) (q : Fin 128) (k : Fin 128) : ridx_main_v27 (ix2 r q) k = ix2 k q :=
  funext fun a => by match a with | ⟨0, _⟩ => rfl | ⟨1, _⟩ => rfl
theorem bidx29 (r : Fin 50000) (q : Fin 128) : idx_main_v28 (idx_main_v29 (ix2 r q)) = ix1 q :=
  funext fun a => by match a with | ⟨0, _⟩ => rfl
theorem lidx49 (r : Fin 50000) (q : Fin 128) (k : Fin 128) : lidx_main_v49 (ix2 r q) k = ix2 r k :=
  funext fun a => by match a with | ⟨0, _⟩ => rfl | ⟨1, _⟩ => rfl
theorem ridx49 (r : Fin 50000) (q : Fin 128) (k : Fin 128) : ridx_main_v49 (ix2 r q) k = ix2 k q :=
  funext fun a => by match a with | ⟨0, _⟩ => rfl | ⟨1, _⟩ => rfl
theorem bidx51 (r : Fin 50000) (q : Fin 128) : idx_main_v50 (idx_main_v51 (ix2 r q)) = ix1 q :=
  funext fun a => by match a with | ⟨0, _⟩ => rfl
theorem lidx55 (r : Fin 50000) (q : Fin 128) (k : Fin 128) : lidx_main_v55 (ix2 r q) k = ix2 r k :=
  funext fun a => by match a with | ⟨0, _⟩ => rfl | ⟨1, _⟩ => rfl
theorem ridx55 (r : Fin 50000) (q : Fin 128) (k : Fin 128) : ridx_main_v55 (ix2 r q) k = ix2 k q :=
  funext fun a => by match a with | ⟨0, _⟩ => rfl | ⟨1, _⟩ => rfl
theorem bidx57 (r : Fin 50000) (q : Fin 128) : idx_main_v56 (idx_main_v57 (ix2 r q)) = ix1 q :=
  funext fun a => by match a with | ⟨0, _⟩ => rfl
theorem lidx60 (r : Fin 50000) (q : Fin 128) (k : Fin 128) : lidx_main_v60 (ix2 r q) k = ix2 r k :=
  funext fun a => by match a with | ⟨0, _⟩ => rfl | ⟨1, _⟩ => rfl
theorem ridx60 (r : Fin 50000) (q : Fin 128) (k : Fin 128) : ridx_main_v60 (ix2 r q) k = ix2 k q :=
  funext fun a => by match a with | ⟨0, _⟩ => rfl | ⟨1, _⟩ => rfl
theorem bidx62 (r : Fin 50000) (q : Fin 128) : idx_main_v61 (idx_main_v62 (ix2 r q)) = ix1 q :=
  funext fun a => by match a with | ⟨0, _⟩ => rfl
theorem lidx65 (r : Fin 50000) (q : Fin 128) (k : Fin 128) : lidx_main_v65 (ix2 r q) k = ix2 r k :=
  funext fun a => by match a with | ⟨0, _⟩ => rfl | ⟨1, _⟩ => rfl
theorem ridx65 (r : Fin 50000) (q : Fin 128) (k : Fin 128) : ridx_main_v65 (ix2 r q) k = ix2 k q :=
  funext fun a => by match a with | ⟨0, _⟩ => rfl | ⟨1, _⟩ => rfl
theorem bidx67 (r : Fin 50000) (q : Fin 128) : idx_main_v66 (idx_main_v67 (ix2 r q)) = ix1 q :=
  funext fun a => by match a with | ⟨0, _⟩ => rfl

section Stages

variable (x0 : (⟨S50000x128, .f32⟩ : BufTy).Contents (Elt Ideal))
  (x1 : (⟨S2x600000, .i32⟩ : BufTy).Contents (Elt Ideal))
  (x2 : (⟨S600000x32, .f32⟩ : BufTy).Contents (Elt Ideal))
  (x3 : (⟨S128x128, .f32⟩ : BufTy).Contents (Elt Ideal))
  (x4 : (⟨S128, .f32⟩ : BufTy).Contents (Elt Ideal))
  (x5 : (⟨S128x128, .f32⟩ : BufTy).Contents (Elt Ideal))
  (x6 : (⟨S128, .f32⟩ : BufTy).Contents (Elt Ideal))
  (x7 : (⟨S32x128, .f32⟩ : BufTy).Contents (Elt Ideal))
  (x8 : (⟨S128, .f32⟩ : BufTy).Contents (Elt Ideal))
  (x9 : (⟨S128x128, .f32⟩ : BufTy).Contents (Elt Ideal))
  (x10 : (⟨S128, .f32⟩ : BufTy).Contents (Elt Ideal))
  (x11 : (⟨S128x128, .f32⟩ : BufTy).Contents (Elt Ideal))
  (x12 : (⟨S128, .f32⟩ : BufTy).Contents (Elt Ideal))
  (x13 : (⟨S32x128, .f32⟩ : BufTy).Contents (Elt Ideal))
  (x14 : (⟨S128, .f32⟩ : BufTy).Contents (Elt Ideal))
  (x15 : (⟨S128x128, .f32⟩ : BufTy).Contents (Elt Ideal))
  (x16 : (⟨S128, .f32⟩ : BufTy).Contents (Elt Ideal))
  (x17 : (⟨S128x128, .f32⟩ : BufTy).Contents (Elt Ideal))
  (x18 : (⟨S128, .f32⟩ : BufTy).Contents (Elt Ideal))

/-! ## The two edge embeddings -/

/-- Entry `(e, q)` of the first edge embedding `x2 · x7 + x8`. -/
theorem d7 (r : Fin 600000) (q : Fin 128) :
    val_main_v7 (F := Ideal) x2 x7 x8 (ix2 r q)
      = dense (fun k : Fin 32 => x2 (ix2 r k)) x7 (fun k => x8 (ix1 k)) q := by
  unfold dense
  rw [val_main_v7_apply, val_main_v4_apply, val_main_v6_apply, val_main_v5_apply, Ideal.addf_def]
  simp only [lidx4, ridx4, bidx6]

/-- Entry `(e, q)` of the second edge embedding `x2 · x13 + x14`. -/
theorem d35 (r : Fin 600000) (q : Fin 128) :
    val_main_v35 (F := Ideal) x2 x13 x14 (ix2 r q)
      = dense (fun k : Fin 32 => x2 (ix2 r k)) x13 (fun k => x14 (ix1 k)) q := by
  unfold dense
  rw [val_main_v35_apply, val_main_v32_apply, val_main_v34_apply, val_main_v33_apply, Ideal.addf_def]
  simp only [lidx32, ridx32, bidx34]

/-! ## The first perceptron, stage by stage -/

/-- Its input is the neighbourhood sum plus the node's own features. -/
theorem a20 (r : Fin 50000) (j : Fin 128) :
    val_main_v20 (F := Ideal) x0 x1 x2 x7 x8 (ix2 r j) = val_main_v19 (F := Ideal) x0 x1 x2 x7 x8 (ix2 r j) + x0 (ix2 r j) := by
  rw [val_main_v20_apply, Ideal.addf_def]

/-- First dense layer. -/
theorem d24 (r : Fin 50000) (q : Fin 128) :
    val_main_v24 (F := Ideal) x0 x1 x2 x3 x4 x7 x8 (ix2 r q)
      = dense (fun k : Fin 128 => val_main_v20 (F := Ideal) x0 x1 x2 x7 x8 (ix2 r k)) x3 (fun k => x4 (ix1 k)) q := by
  unfold dense
  rw [val_main_v24_apply, val_main_v21_apply, val_main_v23_apply, val_main_v22_apply, Ideal.addf_def]
  simp only [lidx21, ridx21, bidx23]

/-- First rectifier. -/
theorem r26 (r : Fin 50000) (q : Fin 128) :
    val_main_v26 (F := Ideal) x0 x1 x2 x3 x4 x7 x8 (ix2 r q) = relu (fun k : Fin 128 => val_main_v24 (F := Ideal) x0 x1 x2 x3 x4 x7 x8 (ix2 r k)) q := by
  unfold relu
  rw [val_main_v26_apply, val_main_v25_apply, val_main_cst_1_apply, Ideal.maximumf_def, Ideal.ofBits_def]

/-- Second dense layer. -/
theorem d30 (r : Fin 50000) (q : Fin 128) :
    val_main_v30 (F := Ideal) x0 x1 x2 x3 x4 x5 x6 x7 x8 (ix2 r q)
      = dense (fun k : Fin 128 => val_main_v26 (F := Ideal) x0 x1 x2 x3 x4 x7 x8 (ix2 r k)) x5 (fun k => x6 (ix1 k)) q := by
  unfold dense
  rw [val_main_v30_apply, val_main_v27_apply, val_main_v29_apply, val_main_v28_apply, Ideal.addf_def]
  simp only [lidx27, ridx27, bidx29]

/-- Second rectifier. -/
theorem r31 (r : Fin 50000) (q : Fin 128) :
    val_main_v31 (F := Ideal) x0 x1 x2 x3 x4 x5 x6 x7 x8 (ix2 r q) = relu (fun k : Fin 128 => val_main_v30 (F := Ideal) x0 x1 x2 x3 x4 x5 x6 x7 x8 (ix2 r k)) q := by
  unfold relu
  rw [val_main_v31_apply, val_main_call1_v0_apply, val_main_call1_cst_apply, Ideal.maximumf_def, Ideal.ofBits_def]

/-! ## The second perceptron and the output layers, stage by stage -/

/-- Its input is the second neighbourhood sum plus the first perceptron's output. -/
theorem a48 (r : Fin 50000) (j : Fin 128) :
    val_main_v48 (F := Ideal) x0 x1 x2 x3 x4 x5 x6 x7 x8 x13 x14 (ix2 r j) = val_main_v47 (F := Ideal) x0 x1 x2 x3 x4 x5 x6 x7 x8 x13 x14 (ix2 r j) + val_main_v31 (F := Ideal) x0 x1 x2 x3 x4 x5 x6 x7 x8 (ix2 r j) := by
  rw [val_main_v48_apply, Ideal.addf_def]

/-- First dense layer. -/
theorem d52 (r : Fin 50000) (q : Fin 128) :
    val_main_v52 (F := Ideal) x0 x1 x2 x3 x4 x5 x6 x7 x8 x9 x10 x13 x14 (ix2 r q)
      = dense (fun k : Fin 128 => val_main_v48 (F := Ideal) x0 x1 x2 x3 x4 x5 x6 x7 x8 x13 x14 (ix2 r k)) x9 (fun k => x10 (ix1 k)) q := by
  unfold dense
  rw [val_main_v52_apply, val_main_v49_apply, val_main_v51_apply, val_main_v50_apply, Ideal.addf_def]
  simp only [lidx49, ridx49, bidx51]

/-- First rectifier. -/
theorem r54 (r : Fin 50000) (q : Fin 128) :
    val_main_v54 (F := Ideal) x0 x1 x2 x3 x4 x5 x6 x7 x8 x9 x10 x13 x14 (ix2 r q) = relu (fun k : Fin 128 => val_main_v52 (F := Ideal) x0 x1 x2 x3 x4 x5 x6 x7 x8 x9 x10 x13 x14 (ix2 r k)) q := by
  unfold relu
  rw [val_main_v54_apply, val_main_v53_apply, val_main_cst_5_apply, Ideal.maximumf_def, Ideal.ofBits_def]

/-- Second dense layer. -/
theorem d58 (r : Fin 50000) (q : Fin 128) :
    val_main_v58 (F := Ideal) x0 x1 x2 x3 x4 x5 x6 x7 x8 x9 x10 x11 x12 x13 x14 (ix2 r q)
      = dense (fun k : Fin 128 => val_main_v54 (F := Ideal) x0 x1 x2 x3 x4 x5 x6 x7 x8 x9 x10 x13 x14 (ix2 r k)) x11 (fun k => x12 (ix1 k)) q := by
  unfold dense
  rw [val_main_v58_apply, val_main_v55_apply, val_main_v57_apply, val_main_v56_apply, Ideal.addf_def]
  simp only [lidx55, ridx55, bidx57]

/-- Second rectifier. -/
theorem r59 (r : Fin 50000) (q : Fin 128) :
    val_main_v59 (F := Ideal) x0 x1 x2 x3 x4 x5 x6 x7 x8 x9 x10 x11 x12 x13 x14 (ix2 r q) = relu (fun k : Fin 128 => val_main_v58 (F := Ideal) x0 x1 x2 x3 x4 x5 x6 x7 x8 x9 x10 x11 x12 x13 x14 (ix2 r k)) q := by
  unfold relu
  rw [val_main_v59_apply, val_main_call3_v0_apply, val_main_call3_cst_apply, Ideal.maximumf_def, Ideal.ofBits_def]

/-- First output layer. -/
theorem d63 (r : Fin 50000) (q : Fin 128) :
    val_main_v63 (F := Ideal) x0 x1 x2 x3 x4 x5 x6 x7 x8 x9 x10 x11 x12 x13 x14 x15 x16 (ix2 r q)
      = dense (fun k : Fin 128 => val_main_v59 (F := Ideal) x0 x1 x2 x3 x4 x5 x6 x7 x8 x9 x10 x11 x12 x13 x14 (ix2 r k)) x15 (fun k => x16 (ix1 k)) q := by
  unfold dense
  rw [val_main_v63_apply, val_main_v60_apply, val_main_v62_apply, val_main_v61_apply, Ideal.addf_def]
  simp only [lidx60, ridx60, bidx62]

/-- Its rectifier. -/
theorem r64 (r : Fin 50000) (q : Fin 128) :
    val_main_v64 (F := Ideal) x0 x1 x2 x3 x4 x5 x6 x7 x8 x9 x10 x11 x12 x13 x14 x15 x16 (ix2 r q) = relu (fun k : Fin 128 => val_main_v63 (F := Ideal) x0 x1 x2 x3 x4 x5 x6 x7 x8 x9 x10 x11 x12 x13 x14 x15 x16 (ix2 r k)) q := by
  unfold relu
  rw [val_main_v64_apply, val_main_call4_v0_apply, val_main_call4_cst_apply, Ideal.maximumf_def, Ideal.ofBits_def]

/-- Second output layer. -/
theorem d68 (r : Fin 50000) (q : Fin 128) :
    val_main_v68 (F := Ideal) x0 x1 x2 x3 x4 x5 x6 x7 x8 x9 x10 x11 x12 x13 x14 x15 x16 x17 x18 (ix2 r q)
      = dense (fun k : Fin 128 => val_main_v64 (F := Ideal) x0 x1 x2 x3 x4 x5 x6 x7 x8 x9 x10 x11 x12 x13 x14 x15 x16 (ix2 r k)) x17 (fun k => x18 (ix1 k)) q := by
  unfold dense
  rw [val_main_v68_apply, val_main_v65_apply, val_main_v67_apply, val_main_v66_apply, Ideal.addf_def]
  simp only [lidx65, ridx65, bidx67]

end Stages

/-! ## The four readings -/

/-- Entry `(e, q)` of the first edge embedding is the dense layer of row `e` of the edge features. -/
theorem emb0 (x2 : (⟨S600000x32, .f32⟩ : BufTy).Contents (Elt Ideal)) (x7 : (⟨S32x128, .f32⟩ : BufTy).Contents (Elt Ideal)) (x8 : (⟨S128, .f32⟩ : BufTy).Contents (Elt Ideal)) (e : Fin 600000) (q : Fin 128) :
    val_main_v7 (F := Ideal) x2 x7 x8 (ix2 e q)
      = dense (fun k : Fin 32 => x2 (ix2 e k)) x7 (fun q => x8 (ix1 q)) q :=
  d7 x2 x7 x8 e q

/-- Entry `(e, q)` of the second edge embedding is the dense layer of row `e` of the edge features. -/
theorem emb1 (x2 : (⟨S600000x32, .f32⟩ : BufTy).Contents (Elt Ideal)) (x13 : (⟨S32x128, .f32⟩ : BufTy).Contents (Elt Ideal)) (x14 : (⟨S128, .f32⟩ : BufTy).Contents (Elt Ideal)) (e : Fin 600000) (q : Fin 128) :
    val_main_v35 (F := Ideal) x2 x13 x14 (ix2 e q)
      = dense (fun k : Fin 32 => x2 (ix2 e k)) x13 (fun q => x14 (ix1 q)) q :=
  d35 x2 x13 x14 e q

/-- Entry `(r, q)` of the first perceptron's output: two dense layers, each followed by the rectifier, applied to
    row `r` of the first neighbourhood sum plus the node features. -/
theorem layer0 (x0 : (⟨S50000x128, .f32⟩ : BufTy).Contents (Elt Ideal)) (x1 : (⟨S2x600000, .i32⟩ : BufTy).Contents (Elt Ideal)) (x2 : (⟨S600000x32, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S32x128, .f32⟩ : BufTy).Contents (Elt Ideal)) (x8 : (⟨S128, .f32⟩ : BufTy).Contents (Elt Ideal)) (r : Fin 50000) (q : Fin 128) :
    val_main_v31 (F := Ideal) x0 x1 x2 x3 x4 x5 x6 x7 x8 (ix2 r q)
      = relu (dense (relu (dense (fun j : Fin 128 => val_main_v19 (F := Ideal) x0 x1 x2 x7 x8 (ix2 r j) + x0 (ix2 r j))
          x3 (fun k => x4 (ix1 k)))) x5 (fun k => x6 (ix1 k))) q := by
  have h24 : ∀ k : Fin 128, val_main_v24 (F := Ideal) x0 x1 x2 x3 x4 x7 x8 (ix2 r k)
      = dense (fun j : Fin 128 => val_main_v19 (F := Ideal) x0 x1 x2 x7 x8 (ix2 r j) + x0 (ix2 r j)) x3 (fun k => x4 (ix1 k)) k :=
    fun k => (d24 x0 x1 x2 x3 x4 x7 x8 r k).trans (dense_congr (fun j => a20 x0 x1 x2 x7 x8 r j) _ _ k)
  have h26 : ∀ k : Fin 128, val_main_v26 (F := Ideal) x0 x1 x2 x3 x4 x7 x8 (ix2 r k)
      = relu (dense (fun j : Fin 128 => val_main_v19 (F := Ideal) x0 x1 x2 x7 x8 (ix2 r j) + x0 (ix2 r j)) x3 (fun k => x4 (ix1 k))) k :=
    fun k => (r26 x0 x1 x2 x3 x4 x7 x8 r k).trans (relu_congr h24 k)
  have h30 : ∀ k : Fin 128, val_main_v30 (F := Ideal) x0 x1 x2 x3 x4 x5 x6 x7 x8 (ix2 r k)
      = dense (relu (dense (fun j : Fin 128 => val_main_v19 (F := Ideal) x0 x1 x2 x7 x8 (ix2 r j) + x0 (ix2 r j)) x3 (fun k => x4 (ix1 k))))
          x5 (fun k => x6 (ix1 k)) k :=
    fun k => (d30 x0 x1 x2 x3 x4 x5 x6 x7 x8 r k).trans (dense_congr h26 _ _ k)
  exact (r31 x0 x1 x2 x3 x4 x5 x6 x7 x8 r q).trans (relu_congr h30 q)

/-- Entry `(r, q)` of the result: the second perceptron (two dense layers, each followed by the rectifier) and the
    two output layers (a dense layer with the rectifier, then a dense layer) applied to row `r` of the second
    neighbourhood sum plus the first perceptron's output. -/
theorem layer1 (x0 : (⟨S50000x128, .f32⟩ : BufTy).Contents (Elt Ideal)) (x1 : (⟨S2x600000, .i32⟩ : BufTy).Contents (Elt Ideal)) (x2 : (⟨S600000x32, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S32x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S32x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) (r : Fin 50000) (q : Fin 128) :
    val_main_v68 (F := Ideal) x0 x1 x2 x3 x4 x5 x6 x7 x8 x9 x10 x11 x12 x13 x14 x15 x16 x17 x18 (ix2 r q)
      = dense (relu (dense (relu (dense (relu (dense
          (fun j : Fin 128 => val_main_v47 (F := Ideal) x0 x1 x2 x3 x4 x5 x6 x7 x8 x13 x14 (ix2 r j)
            + val_main_v31 (F := Ideal) x0 x1 x2 x3 x4 x5 x6 x7 x8 (ix2 r j))
          x9 (fun k => x10 (ix1 k)))) x11 (fun k => x12 (ix1 k)))) x15 (fun k => x16 (ix1 k)))) x17 (fun k => x18 (ix1 k)) q := by
  have h52 : ∀ k : Fin 128, val_main_v52 (F := Ideal) x0 x1 x2 x3 x4 x5 x6 x7 x8 x9 x10 x13 x14 (ix2 r k)
      = dense (fun j : Fin 128 => val_main_v47 (F := Ideal) x0 x1 x2 x3 x4 x5 x6 x7 x8 x13 x14 (ix2 r j) + val_main_v31 (F := Ideal) x0 x1 x2 x3 x4 x5 x6 x7 x8 (ix2 r j)) x9 (fun k => x10 (ix1 k)) k :=
    fun k => (d52 x0 x1 x2 x3 x4 x5 x6 x7 x8 x9 x10 x13 x14 r k).trans (dense_congr (fun j => a48 x0 x1 x2 x3 x4 x5 x6 x7 x8 x13 x14 r j) _ _ k)
  have h54 : ∀ k : Fin 128, val_main_v54 (F := Ideal) x0 x1 x2 x3 x4 x5 x6 x7 x8 x9 x10 x13 x14 (ix2 r k)
      = relu (dense (fun j : Fin 128 => val_main_v47 (F := Ideal) x0 x1 x2 x3 x4 x5 x6 x7 x8 x13 x14 (ix2 r j) + val_main_v31 (F := Ideal) x0 x1 x2 x3 x4 x5 x6 x7 x8 (ix2 r j)) x9 (fun k => x10 (ix1 k))) k :=
    fun k => (r54 x0 x1 x2 x3 x4 x5 x6 x7 x8 x9 x10 x13 x14 r k).trans (relu_congr h52 k)
  have h58 : ∀ k : Fin 128, val_main_v58 (F := Ideal) x0 x1 x2 x3 x4 x5 x6 x7 x8 x9 x10 x11 x12 x13 x14 (ix2 r k)
      = dense (relu (dense (fun j : Fin 128 => val_main_v47 (F := Ideal) x0 x1 x2 x3 x4 x5 x6 x7 x8 x13 x14 (ix2 r j) + val_main_v31 (F := Ideal) x0 x1 x2 x3 x4 x5 x6 x7 x8 (ix2 r j)) x9 (fun k => x10 (ix1 k)))) x11 (fun k => x12 (ix1 k)) k :=
    fun k => (d58 x0 x1 x2 x3 x4 x5 x6 x7 x8 x9 x10 x11 x12 x13 x14 r k).trans (dense_congr h54 _ _ k)
  have h59 : ∀ k : Fin 128, val_main_v59 (F := Ideal) x0 x1 x2 x3 x4 x5 x6 x7 x8 x9 x10 x11 x12 x13 x14 (ix2 r k)
      = relu (dense (relu (dense (fun j : Fin 128 => val_main_v47 (F := Ideal) x0 x1 x2 x3 x4 x5 x6 x7 x8 x13 x14 (ix2 r j) + val_main_v31 (F := Ideal) x0 x1 x2 x3 x4 x5 x6 x7 x8 (ix2 r j)) x9 (fun k => x10 (ix1 k)))) x11 (fun k => x12 (ix1 k))) k :=
    fun k => (r59 x0 x1 x2 x3 x4 x5 x6 x7 x8 x9 x10 x11 x12 x13 x14 r k).trans (relu_congr h58 k)
  have h63 : ∀ k : Fin 128, val_main_v63 (F := Ideal) x0 x1 x2 x3 x4 x5 x6 x7 x8 x9 x10 x11 x12 x13 x14 x15 x16 (ix2 r k)
      = dense (relu (dense (relu (dense (fun j : Fin 128 => val_main_v47 (F := Ideal) x0 x1 x2 x3 x4 x5 x6 x7 x8 x13 x14 (ix2 r j) + val_main_v31 (F := Ideal) x0 x1 x2 x3 x4 x5 x6 x7 x8 (ix2 r j)) x9 (fun k => x10 (ix1 k)))) x11 (fun k => x12 (ix1 k)))) x15 (fun k => x16 (ix1 k)) k :=
    fun k => (d63 x0 x1 x2 x3 x4 x5 x6 x7 x8 x9 x10 x11 x12 x13 x14 x15 x16 r k).trans (dense_congr h59 _ _ k)
  have h64 : ∀ k : Fin 128, val_main_v64 (F := Ideal) x0 x1 x2 x3 x4 x5 x6 x7 x8 x9 x10 x11 x12 x13 x14 x15 x16 (ix2 r k)
      = relu (dense (relu (dense (relu (dense (fun j : Fin 128 => val_main_v47 (F := Ideal) x0 x1 x2 x3 x4 x5 x6 x7 x8 x13 x14 (ix2 r j) + val_main_v31 (F := Ideal) x0 x1 x2 x3 x4 x5 x6 x7 x8 (ix2 r j)) x9 (fun k => x10 (ix1 k)))) x11 (fun k => x12 (ix1 k)))) x15 (fun k => x16 (ix1 k))) k :=
    fun k => (r64 x0 x1 x2 x3 x4 x5 x6 x7 x8 x9 x10 x11 x12 x13 x14 x15 x16 r k).trans (relu_congr h63 k)
  exact (d68 x0 x1 x2 x3 x4 x5 x6 x7 x8 x9 x10 x11 x12 x13 x14 x15 x16 x17 x18 r q).trans (dense_congr h64 _ _ q)

end Cert.Gine.Ref

end
-- ==== Proof.Bridge.lean ====
/-
  The kernel program's arrays are the reference's stages.

  Row by row both sides are the same dense layers and rectifiers of the same rows: the kernel's embedding is the
  reference's (a bias read through its one-row reshape is the bias entry itself); hence the two aggregations, the same
  function of equal arguments, agree; hence the first layer's node arrays agree, entry by entry; and in the same way
  the second layer with the output head.
-/
import proofs.«180991_j68848325755451_2_alg».proof.Proof.KDefs
import proofs.«180991_j68848325755451_2_alg».proof.Proof.RefRows

noncomputable section

namespace Cert.Gine.Bridge

open Cert.Gine Cert.Gine.K Cert.ReferenceIdeal Cert.ReferenceIdeal.Read
open Idealize.ShloMosaic Idealize.ShloMosaic.ValueIdx

/-- Reading a bias through its one-row reshape is reading the bias. -/
theorem row_fun (v : (⟨S128, .f32⟩ : BufTy).Contents (Elt Ideal)) :
    (fun k : Fin 128 => row v (ix2 (0 : Fin 1) k)) = fun k => v (ix1 k) := funext (row_apply v)

/-- The kernel's edge embedding, converted from its storage format, is the reference's first embedding stage. -/
theorem k0_eq (x2 : (⟨S600000x32, .f32⟩ : BufTy).Contents (Elt Ideal)) (x7 : (⟨S32x128, .f32⟩ : BufTy).Contents (Elt Ideal)) (x8 : (⟨S128, .f32⟩ : BufTy).Contents (Elt Ideal)) :
    extf .f32 (K0 x2 x7 x8) Cert.KernelIdeal.Gen.bitsLt_bf16_f32 = val_main_v7 (F := Ideal) x2 x7 x8 := by
  funext i
  obtain ⟨e, q, rfl⟩ : ∃ (e : Fin 600000) (q : Fin 128), i = ix2 e q := ⟨i 0, i 1, eq_ix2 i⟩
  rw [Ref.emb0]
  show dense (fun k : Fin 32 => x2 (ix2 e k)) x7 (fun q => row x8 (ix2 (0 : Fin 1) q)) q = _
  rw [row_fun]

/-- The same for the second embedding. -/
theorem k2_eq (x2 : (⟨S600000x32, .f32⟩ : BufTy).Contents (Elt Ideal)) (x13 : (⟨S32x128, .f32⟩ : BufTy).Contents (Elt Ideal)) (x14 : (⟨S128, .f32⟩ : BufTy).Contents (Elt Ideal)) :
    extf .f32 (K0 x2 x13 x14) Cert.KernelIdeal.Gen.bitsLt_bf16_f32 = val_main_v35 (F := Ideal) x2 x13 x14 := by
  funext i
  obtain ⟨e, q, rfl⟩ : ∃ (e : Fin 600000) (q : Fin 128), i = ix2 e q := ⟨i 0, i 1, eq_ix2 i⟩
  rw [Ref.emb1]
  show dense (fun k : Fin 32 => x2 (ix2 e k)) x13 (fun q => row x14 (ix2 (0 : Fin 1) q)) q = _
  rw [row_fun]

/-- The kernel's first-layer node array is the reference's. -/
theorem k1_eq (x0 : (⟨S50000x128, .f32⟩ : BufTy).Contents (Elt Ideal)) (x1 : (⟨S2x600000, .i32⟩ : BufTy).Contents (Elt Ideal)) (x2 : (⟨S600000x32, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S32x128, .f32⟩ : BufTy).Contents (Elt Ideal)) (x8 : (⟨S128, .f32⟩ : BufTy).Contents (Elt Ideal)) :
    K1 x0 x1 x2 x3 x4 x5 x6 x7 x8 = val_main_v31 (F := Ideal) x0 x1 x2 x3 x4 x5 x6 x7 x8 := by
  funext i
  obtain ⟨r, q, rfl⟩ : ∃ (r : Fin 50000) (q : Fin 128), i = ix2 r q := ⟨i 0, i 1, eq_ix2 i⟩
  rw [Ref.layer0, v19_eq, ← k0_eq]
  show relu (dense (relu (dense (fun j : Fin 128 =>
      agg x0 x1 (extf .f32 (K0 x2 x7 x8) Cert.KernelIdeal.Gen.bitsLt_bf16_f32) (ix2 r j) + x0 (ix2 r j)) x3
        (fun k => row x4 (ix2 (0 : Fin 1) k)))) x5 (fun k => row x6 (ix2 (0 : Fin 1) k))) q = _
  rw [row_fun, row_fun]

/-- The kernel's result array is the reference's. -/
theorem k3_eq (x0 : (⟨S50000x128, .f32⟩ : BufTy).Contents (Elt Ideal)) (x1 : (⟨S2x600000, .i32⟩ : BufTy).Contents (Elt Ideal)) (x2 : (⟨S600000x32, .f32⟩ : BufTy).Contents (Elt Ideal)) (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal)) (x7 : (⟨S32x128, .f32⟩ : BufTy).Contents (Elt Ideal)) (x8 : (⟨S128, .f32⟩ : BufTy).Contents (Elt Ideal)) (x9 : (⟨S128x128, .f32⟩ : BufTy).Contents (Elt Ideal)) (x10 : (⟨S128, .f32⟩ : BufTy).Contents (Elt Ideal)) (x11 : (⟨S128x128, .f32⟩ : BufTy).Contents (Elt Ideal)) (x12 : (⟨S128, .f32⟩ : BufTy).Contents (Elt Ideal)) (x13 : (⟨S32x128, .f32⟩ : BufTy).Contents (Elt Ideal)) (x14 : (⟨S128, .f32⟩ : BufTy).Contents (Elt Ideal)) (x15 : (⟨S128x128, .f32⟩ : BufTy).Contents (Elt Ideal)) (x16 : (⟨S128, .f32⟩ : BufTy).Contents (Elt Ideal)) (x17 : (⟨S128x128, .f32⟩ : BufTy).Contents (Elt Ideal)) (x18 : (⟨S128, .f32⟩ : BufTy).Contents (Elt Ideal)) :
    K3 x0 x1 x2 x3 x4 x5 x6 x7 x8 x9 x10 x11 x12 x13 x14 x15 x16 x17 x18
      = val_main_v68 (F := Ideal) x0 x1 x2 x3 x4 x5 x6 x7 x8 x9 x10 x11 x12 x13 x14 x15 x16 x17 x18 := by
  funext i
  obtain ⟨r, q, rfl⟩ : ∃ (r : Fin 50000) (q : Fin 128), i = ix2 r q := ⟨i 0, i 1, eq_ix2 i⟩
  rw [Ref.layer1, v47_eq, ← k1_eq, ← k2_eq]
  show dense (relu (dense (relu (dense (relu (dense (fun j : Fin 128 =>
      agg (K1 x0 x1 x2 x3 x4 x5 x6 x7 x8) x1 (extf .f32 (K0 x2 x13 x14) Cert.KernelIdeal.Gen.bitsLt_bf16_f32) (ix2 r j)
        + K1 x0 x1 x2 x3 x4 x5 x6 x7 x8 (ix2 r j)) x9
        (fun k => row x10 (ix2 (0 : Fin 1) k)))) x11 (fun k => row x12 (ix2 (0 : Fin 1) k)))) x15
        (fun k => row x16 (ix2 (0 : Fin 1) k)))) x17 (fun k => row x18 (ix2 (0 : Fin 1) k)) q = _
  rw [row_fun, row_fun, row_fun, row_fun]

end Cert.Gine.Bridge

end
-- ==== Proof.lean ====
/-
  Two programs for a two-layer graph network with edge features and an output head: a kernel program of four launches
  (two edge embeddings, a node perceptron, a node perceptron fused with the head) among host operations that gather,
  rectify and scatter-add the messages, and a reference that computes everything with whole-array operations.

  On the extended reals the two compute the same array. Each launch writes its output block by block, and every block
  is the restriction of one whole-array function: a dense layer (inner products with the weight columns plus the
  bias) or a chain of dense layers and rectifiers, applied row by row. The reference's stages are the same dense layers
  and rectifiers of the same rows; an inner product is a finite sum on both sides, so no order of summation and no
  storage format (a change of format is the identity on the extended reals) distinguishes them. The gather and
  scatter-add between the launches are the same host operations in both programs, applied to equal arrays, and are never
  opened. No law used needs the inputs finite, so the precondition is not used for the value.

  The frames of the two kernel programs are the generated ones; the reference's frame is its generated run with the
  result dropped; the idealization rewrote nothing.
-/
import proofs.«180991_j68848325755451_2_alg».proof.Defs
import proofs.«180991_j68848325755451_2_alg».proof.Proof.Gen.Kernel
import proofs.«180991_j68848325755451_2_alg».proof.Proof.Gen.Kernel.Skeleton
import proofs.«180991_j68848325755451_2_alg».proof.Proof.Gen.Kernel.Launch
import proofs.«180991_j68848325755451_2_alg».proof.Proof.Gen.Kernel.Points
import proofs.«180991_j68848325755451_2_alg».proof.Proof.Gen.Kernel.Frame
import proofs.«180991_j68848325755451_2_alg».proof.Proof.Gen.KernelIdeal
import proofs.«180991_j68848325755451_2_alg».proof.Proof.Gen.KernelIdeal.Skeleton
import proofs.«180991_j68848325755451_2_alg».proof.Proof.Gen.KernelIdeal.Launch
import proofs.«180991_j68848325755451_2_alg».proof.Proof.Gen.KernelIdeal.Points
import proofs.«180991_j68848325755451_2_alg».proof.Proof.Gen.KernelIdeal.Frame
import proofs.«180991_j68848325755451_2_alg».proof.Proof.Gen.ReferenceIdeal
import proofs.«180991_j68848325755451_2_alg».proof.Proof.Gen.Pre_finite_inputs
import proofs.«180991_j68848325755451_2_alg».proof.Proof.Gen.ReferenceIdeal.Run
import proofs.«180991_j68848325755451_2_alg».proof.Proof.Gen.ReferenceIdeal.Read
import proofs.«180991_j68848325755451_2_alg».proof.Proof.KRun
import proofs.«180991_j68848325755451_2_alg».proof.Proof.KValue
import proofs.«180991_j68848325755451_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.Value.run (F := Ideal) m ρ)

set_option maxHeartbeats 1000000 in
/-- The kernel program ends with its result at `K3` of its arguments; the reference with its result at its last stage
    of its arguments; the arguments agree, and `K3` is that last stage. -/
theorem algebraic : Cert.algebraic_KernelIdeal_ReferenceIdeal := by
  intro m ρ m' ρ' _ hagree
  refine ⟨fun c => Cert.Gine.K.K3 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)),
    (θ_run Cert.KernelIdeal.defs _ _).mono (fun r h c => ⟨(h c).1.trans (Cert.Gine.KValue.value m ρ c), (h c).2⟩)
      (Cert.KernelIdeal.Valued.run_valued m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15, h16, h17, h18⟩ := hagree c
  rw [Cert.ReferenceIdeal.Read.val_main_v68_eq, h0, h1, h2, h3, h4, h5, h6, h7, h8, h9, h10, h11, h12, h13, h14, h15, h16, h17, h18]
  exact (Cert.Gine.Bridge.k3_eq _ _ _ _ _ _ _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
